-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S5x128x128 : Shape := ⟨3, ![5, 128, 128]⟩
abbrev S5x128 : Shape := ⟨2, ![5, 128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S10 .f32) (main_v13 : IVec S_ 1) (main_v16 : IVec S128x10 1) : IVec S_ 1 :=
  let main_c_5 : IVec S_ 1 := constantI S_ 1 1#1
  let main_v17 : IVec S_ 1 := (fun x v => Host.reduce IntOp.andi x v reducesTo_S128x10_S_d0_1 h_S_) main_v16 main_c_5
  let main_v18 : IVec S_ 1 := andi main_v13 main_v17
  let main_v19 : FVec F S10 .f32 := Host.absf main_arg6
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S100000 32) (main_arg3 : FVec F S5x128x128 .f32) (main_arg4 : FVec F S5x128 .f32) (main_arg5 : FVec F S128x10 .f32) (main_arg6 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S5x128x128 .f32 := Host.absf main_arg3
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg4
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S128x10 .f32 := Host.absf main_arg5
  let main_cst_4 : FVec F S_ .f32 := constant S_ .f32 0x7F800000#32
  let main_v15 : FVec F S128x10 .f32 := broadcastInDim S128x10 ![] bcast_S_S128x10 main_cst_4
  let main_v16 : IVec S128x10 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S5x128x128 : Shape := ⟨3, ![5, 128, 128]⟩
abbrev S5x128 : Shape := ⟨2, ![5, 128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S5000x128 : Shape := ⟨2, ![5000, 128]⟩
abbrev S1700000x128 : Shape := ⟨2, ![1700000, 128]⟩
abbrev S1x128 : Shape := ⟨2, ![1, 128]⟩
abbrev S128 : Shape := ⟨1, ![128]⟩
abbrev S512 : Shape := ⟨1, ![512]⟩
abbrev S100000x1 : Shape := ⟨2, ![100000, 1]⟩
abbrev S512x128 : Shape := ⟨2, ![512, 128]⟩
abbrev S512x1 : Shape := ⟨2, ![512, 1]⟩
abbrev S1x10 : Shape := ⟨2, ![1, 10]⟩
abbrev S512x10 : Shape := ⟨2, ![512, 10]⟩

abbrev nBuf : Space → Nat
  | .hbm => 180
  | .vmem => 54
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S5x128x128, .f32⟩
  | 4 => ⟨S5x128, .f32⟩
  | 5 => ⟨S128x10, .f32⟩
  | 6 => ⟨S10, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S1x128x128, .f32⟩
  | 48 => ⟨S128x128, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S128, .f32⟩
  | 68 => ⟨S1x128, .f32⟩
  | 69 => ⟨S100000x128, .f32⟩
  | 70 => ⟨S1x128x128, .f32⟩
  | 71 => ⟨S128x128, .f32⟩
  | 72 => ⟨S100000x128, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x128, .f32⟩
  | 82 => ⟨S1700000x1, .f32⟩
  | 83 => ⟨S1700000x128, .f32⟩
  | 84 => ⟨S1700000x128, .f32⟩
  | 85 => ⟨S_, .f32⟩
  | 86 => ⟨S100000x128, .f32⟩
  | 87 => ⟨S1700000x1, .i32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S1x128x128, .f32⟩
  | 94 => ⟨S128x128, .f32⟩
  | 95 => ⟨S100000x128, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x128, .f32⟩
  | 105 => ⟨S1700000x1, .f32⟩
  | 106 => ⟨S1700000x128, .f32⟩
  | 107 => ⟨S1700000x128, .f32⟩
  | 108 => ⟨S_, .f32⟩
  | 109 => ⟨S100000x128, .f32⟩
  | 110 => ⟨S1700000x1, .i32⟩
  | 111 => ⟨S100000x128, .f32⟩
  | 112 => ⟨S1x128, .f32⟩
  | 113 => ⟨S128, .f32⟩
  | 114 => ⟨S1x128, .f32⟩
  | 115 => ⟨S100000x128, .f32⟩
  | 116 => ⟨S1x128x128, .f32⟩
  | 117 => ⟨S128x128, .f32⟩
  | 118 => ⟨S100000x128, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x128, .f32⟩
  | _ => ⟨S100000x128, .f32⟩

abbrev hbmTy0_1 (i : Nat) : BufTy := match i % 128 with
  | 0 => ⟨S1700000x1, .f32⟩
  | 1 => ⟨S1700000x128, .f32⟩
  | 2 => ⟨S1700000x128, .f32⟩
  | 3 => ⟨S_, .f32⟩
  | 4 => ⟨S100000x128, .f32⟩
  | 5 => ⟨S1700000x1, .i32⟩
  | 6 => ⟨S100000x128, .f32⟩
  | 7 => ⟨S1x128, .f32⟩
  | 8 => ⟨S128, .f32⟩
  | 9 => ⟨S1x128, .f32⟩
  | 10 => ⟨S100000x128, .f32⟩
  | 11 => ⟨S1x128x128, .f32⟩
  | 12 => ⟨S128x128, .f32⟩
  | 13 => ⟨S100000x128, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S1700000x128, .f32⟩
  | 23 => ⟨S1700000x1, .f32⟩
  | 24 => ⟨S1700000x128, .f32⟩
  | 25 => ⟨S1700000x128, .f32⟩
  | 26 => ⟨S_, .f32⟩
  | 27 => ⟨S100000x128, .f32⟩
  | 28 => ⟨S1700000x1, .i32⟩
  | 29 => ⟨S100000x128, .f32⟩
  | 30 => ⟨S1x128, .f32⟩
  | 31 => ⟨S128, .f32⟩
  | 32 => ⟨S1x128, .f32⟩
  | 33 => ⟨S100000x128, .f32⟩
  | 34 => ⟨S_, .f32⟩
  | 35 => ⟨S100000, .f32⟩
  | 36 => ⟨S_, .f32⟩
  | 37 => ⟨S512, .f32⟩
  | 38 => ⟨S100000x1, .i32⟩
  | 39 => ⟨S512, .f32⟩
  | 40 => ⟨S_, .f32⟩
  | 41 => ⟨S512x128, .f32⟩
  | 42 => ⟨S100000x1, .i32⟩
  | 43 => ⟨S512x128, .f32⟩
  | 44 => ⟨S_, .f32⟩
  | 45 => ⟨S512, .f32⟩
  | 46 => ⟨S512, .f32⟩
  | 47 => ⟨S512x1, .f32⟩
  | 48 => ⟨S512x128, .f32⟩
  | 49 => ⟨S512x128, .f32⟩
  | 50 => ⟨S1x10, .f32⟩
  | 51 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S512x128, .f32⟩
  | .local _ .vmem, ⟨51, _⟩ => ⟨S128x10, .f32⟩
  | .local _ .vmem, ⟨52, _⟩ => ⟨S1x10, .f32⟩
  | .local _ .vmem, ⟨53, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_12 : Ref sig .tc := ⟨.hbm, 96, rfl⟩
abbrev main_v73 : Ref sig .tc := ⟨.hbm, 97, rfl⟩
abbrev main_v74 : Ref sig .tc := ⟨.hbm, 98, rfl⟩
abbrev main_c_13 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_14 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_c_15 : Ref sig .tc := ⟨.hbm, 119, rfl⟩
abbrev main_v93 : Ref sig .tc := ⟨.hbm, 120, rfl⟩
abbrev main_v94 : Ref sig .tc := ⟨.hbm, 121, rfl⟩
abbrev main_c_16 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_17 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_c_18 : Ref sig .tc := ⟨.hbm, 142, rfl⟩
abbrev main_v113 : Ref sig .tc := ⟨.hbm, 143, rfl⟩
abbrev main_v114 : Ref sig .tc := ⟨.hbm, 144, rfl⟩
abbrev main_c_19 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_20 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_21 : Ref sig .tc := ⟨.hbm, 162, rfl⟩
abbrev main_v130 : Ref sig .tc := ⟨.hbm, 163, rfl⟩
abbrev main_cst_22 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_23 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_24 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg1_0 : Ref sig .tc := ⟨.vmem, 51, rfl⟩
abbrev cc10_stg2_0 : Ref sig .tc := ⟨.vmem, 52, rfl⟩
abbrev cc10_stg3_0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem1_0 : DmaSem sig := 51
abbrev cc10_sem2_0 : DmaSem sig := 52
abbrev cc10_sem3_0 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S512x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S128x10 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x10 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S512x10 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S5x128x128_S1x128x128_0_0_0 : S5x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S5x128_S1x128_0_0 : S5x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S100000x128.size a
  hwx9_2 : ∀ i : grid9.Coords, EltTy.bits .f32 = 32 ∨ (Rect.block (s := S100000x128) S5000x128.size (cc9_transform_2 i) (hinb9_2 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S512x128.size a ≤ S512x128.size a
  hwx10_0 : ∀ i : grid10.Coords, EltTy.bits .f32 = 32 ∨ (Rect.block (s := S512x128) S512x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x10.size a ≤ S128x10.size a
  hwx10_1 : ∀ i : grid10.Coords, EltTy.bits .f32 = 32 ∨ (Rect.block (s := S128x10) S128x10.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x10.size a ≤ S1x10.size a
  hwx10_2 : ∀ i : grid10.Coords, EltTy.bits .f32 = 32 ∨ (Rect.block (s := S1x10) S1x10.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S512x10.size a ≤ S512x10.size a
  hwx10_3 : ∀ i : grid10.Coords, EltTy.bits .f32 = 32 ∨ (Rect.block (s := S512x10) S512x10.size (cc10_transform_3 i) (hinb10_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v85) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v88) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v89) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v91) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v105) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v108) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v109) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v109) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v111) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v112) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v125) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v128) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v129) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v141) S512x128.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg5) S128x10.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v142) S1x10.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v143) S512x10.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S5x128x128 : Shape := ⟨3, ![5, 128, 128]⟩
abbrev S5x128 : Shape := ⟨2, ![5, 128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S1700000x128 : Shape := ⟨2, ![1700000, 128]⟩
abbrev S1x128 : Shape := ⟨2, ![1, 128]⟩
abbrev S128 : Shape := ⟨1, ![128]⟩
abbrev S512 : Shape := ⟨1, ![512]⟩
abbrev S100000x1 : Shape := ⟨2, ![100000, 1]⟩
abbrev S512x128 : Shape := ⟨2, ![512, 128]⟩
abbrev S512x1 : Shape := ⟨2, ![512, 1]⟩
abbrev S512x10 : Shape := ⟨2, ![512, 10]⟩
abbrev S1x10 : Shape := ⟨2, ![1, 10]⟩

abbrev nBuf : Space → Nat
  | .hbm => 202
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S5x128x128, .f32⟩
  | 4 => ⟨S5x128, .f32⟩
  | 5 => ⟨S128x10, .f32⟩
  | 6 => ⟨S10, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S1x128x128, .f32⟩
  | 48 => ⟨S128x128, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S1x128x128, .f32⟩
  | 75 => ⟨S128x128, .f32⟩
  | 76 => ⟨S100000x128, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x128, .f32⟩
  | 86 => ⟨S1700000x1, .f32⟩
  | 87 => ⟨S1700000x128, .f32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S1x128x128, .f32⟩
  | 102 => ⟨S128x128, .f32⟩
  | 103 => ⟨S100000x128, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x128, .f32⟩
  | 113 => ⟨S1700000x1, .f32⟩
  | 114 => ⟨S1700000x128, .f32⟩
  | 115 => ⟨S1700000x128, .f32⟩
  | 116 => ⟨S_, .f32⟩
  | 117 => ⟨S100000x128, .f32⟩
  | 118 => ⟨S1700000x1, .i32⟩
  | 119 => ⟨S100000x128, .f32⟩
  | 120 => ⟨S1x128, .f32⟩
  | 121 => ⟨S128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S1x128x128, .f32⟩
  | 1 => ⟨S128x128, .f32⟩
  | 2 => ⟨S100000x128, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x128, .f32⟩
  | 12 => ⟨S1700000x1, .f32⟩
  | 13 => ⟨S1700000x128, .f32⟩
  | 14 => ⟨S1700000x128, .f32⟩
  | 15 => ⟨S_, .f32⟩
  | 16 => ⟨S100000x128, .f32⟩
  | 17 => ⟨S1700000x1, .i32⟩
  | 18 => ⟨S100000x128, .f32⟩
  | 19 => ⟨S1x128, .f32⟩
  | 20 => ⟨S128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S1x128x128, .f32⟩
  | 28 => ⟨S128x128, .f32⟩
  | 29 => ⟨S100000x128, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000x128, .f32⟩
  | 39 => ⟨S1700000x1, .f32⟩
  | 40 => ⟨S1700000x128, .f32⟩
  | 41 => ⟨S1700000x128, .f32⟩
  | 42 => ⟨S_, .f32⟩
  | 43 => ⟨S100000x128, .f32⟩
  | 44 => ⟨S1700000x1, .i32⟩
  | 45 => ⟨S100000x128, .f32⟩
  | 46 => ⟨S1x128, .f32⟩
  | 47 => ⟨S128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S_, .f32⟩
  | 55 => ⟨S100000, .f32⟩
  | 56 => ⟨S_, .f32⟩
  | 57 => ⟨S512, .f32⟩
  | 58 => ⟨S100000x1, .i32⟩
  | 59 => ⟨S512, .f32⟩
  | 60 => ⟨S_, .f32⟩
  | 61 => ⟨S512x128, .f32⟩
  | 62 => ⟨S100000x1, .i32⟩
  | 63 => ⟨S512x128, .f32⟩
  | 64 => ⟨S_, .f32⟩
  | 65 => ⟨S512, .f32⟩
  | 66 => ⟨S512, .f32⟩
  | 67 => ⟨S512x1, .f32⟩
  | 68 => ⟨S512x128, .f32⟩
  | 69 => ⟨S512x128, .f32⟩
  | 70 => ⟨S512x10, .f32⟩
  | 71 => ⟨S1x10, .f32⟩
  | 72 => ⟨S512x10, .f32⟩
  | 73 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_9 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_call2_cst : Ref sig .tc := ⟨.hbm, 98, rfl⟩
abbrev main_call2_v0 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_12 : Ref sig .tc := ⟨.hbm, 104, rfl⟩
abbrev main_v77 : Ref sig .tc := ⟨.hbm, 105, rfl⟩
abbrev main_v78 : Ref sig .tc := ⟨.hbm, 106, rfl⟩
abbrev main_c_13 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_14 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_call3_cst : Ref sig .tc := ⟨.hbm, 125, rfl⟩
abbrev main_call3_v0 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_c_15 : Ref sig .tc := ⟨.hbm, 131, rfl⟩
abbrev main_v99 : Ref sig .tc := ⟨.hbm, 132, rfl⟩
abbrev main_v100 : Ref sig .tc := ⟨.hbm, 133, rfl⟩
abbrev main_c_16 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_17 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_call4_cst : Ref sig .tc := ⟨.hbm, 152, rfl⟩
abbrev main_call4_v0 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_c_18 : Ref sig .tc := ⟨.hbm, 158, rfl⟩
abbrev main_v121 : Ref sig .tc := ⟨.hbm, 159, rfl⟩
abbrev main_v122 : Ref sig .tc := ⟨.hbm, 160, rfl⟩
abbrev main_c_19 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_20 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_call5_cst : Ref sig .tc := ⟨.hbm, 179, rfl⟩
abbrev main_call5_v0 : Ref sig .tc := ⟨.hbm, 180, rfl⟩
abbrev main_v139 : Ref sig .tc := ⟨.hbm, 181, rfl⟩
abbrev main_cst_21 : Ref sig .tc := ⟨.hbm, 182, rfl⟩
abbrev main_v140 : Ref sig .tc := ⟨.hbm, 183, rfl⟩
abbrev main_cst_22 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_23 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_24 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S5x128x128_S1x128x128_0_0_0 : S5x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.RunValue.lean ====
/-
  The idealized kernel's run with its result read.

  The program is eleven TensorCore regions among stretches of host operations. Run from any memory with zero counters,
  every weakly fair execution terminates without a fault in a state where each unscoped buffer of core `c` holds what
  the fold of the segments leaves in it (`Gen.W24`): a host stretch applies its operations, a region replaces its
  output array by what its write-backs leave and changes nothing else. Read at the result buffer this names the result
  of the run, `W24 m ρ c main_v143`; read at the argument buffers it says they end as launched.
-/
import proofs.«164210_j54150947668273_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the segments, its last thread state read against the final state at the result buffer and at each
    argument buffer. -/
theorem run : θ_run defs (onTc (τ := τ) (main (F := F))) ⟨m, fun _ => 0, ρ⟩ (fun r => ∀ c : Dev nD,
      r.2.mem ((c.tc : Thread nD τ).loc main_v143) = W24 m ρ c (Proc.devRef .tc main_v143)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v143 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c)⟩)

end Cert.KernelIdeal.RunValue

end
-- ==== Proof.Net.lean ====
/-
  The network both programs compute, as functions of whole arrays over the extended reals.

  A five-layer graph convolution with symmetric normalisation, mean pooling and a linear head:
  * `srcOf e`, `dstOf e`: the edge list's two rows, each followed by the self loops `0 … N − 1` (1,700,000 entries);
  * `dinvOf e`: `deg⁻¹ᐟ²` where the in-degree `deg` (a scatter-add of ones over `dst`) is positive, `0` elsewhere;
    `normOf e`: per edge, `dinv[src] · dinv[dst]` (indices below zero wrapped by `N`, as the host gathers);
  * `aggOf h e`: the rows `h[src]` scaled by `norm` and scatter-added into row `dst` of a zero array;
  * `layer x w b e`: `max (aggOf (x · w) e + b, 0)` (the bias a length-128 vector spread over the rows);
  * `wOf l`, `bOf l`: layer `l`'s weight and bias cut out of the stacked parameters;
  * `poolOf x g`: per graph id, the sum of the rows of `x` divided by `max (count, 1)`;
    `poolHead x g W b`: `poolOf x g · W + b`;
  * `net`: the five layers composed, pooled, and the head applied.
  Every definition's body is, verbatim, a sub-term of the reference program's composed result term: the two programs
  share these host operations, so neither proof ever opens a gather or a scatter-add.
-/
import proofs.«164210_j54150947668273_1_alg».proof.ReferenceIdeal
import proofs.«164210_j54150947668273_1_alg».proof.Proof.Gen.ReferenceIdeal
import Idealize.ShloMosaic.PureOps.Ideal

noncomputable section

namespace Cert.Net

open Cert.ReferenceIdeal Cert.ReferenceIdeal.Gen Idealize.ShloMosaic Idealize.ShloMosaic.TcCoe Idealize.SL.Sem Idealize.ShloMosaic.StableHlo

def dstOf (a1 : (⟨S2x1600000, .i32⟩ : BufTy).Contents (Elt Ideal)) : (⟨S1700000, .i32⟩ : BufTy).Contents (Elt Ideal) :=
  (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)

def srcOf (a1 : (⟨S2x1600000, .i32⟩ : BufTy).Contents (Elt Ideal)) : (⟨S1700000, .i32⟩ : BufTy).Contents (Elt Ideal) :=
  (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0)

def dinvOf (a1 : (⟨S2x1600000, .i32⟩ : BufTy).Contents (Elt Ideal)) : FVec Ideal S100000 .f32 :=
  (select (cmpf (F := Ideal) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (dstOf a1)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (dstOf a1)) (broadcastInDim S1700000 ![] bcast_S_S1700000 (constant S_ .f32 0x3F800000#32)))) (broadcastInDim S100000 ![] bcast_S_S100000 (id (constant S_ .f32 0x00000000#32))))

def normOf (a1 : (⟨S2x1600000, .i32⟩ : BufTy).Contents (Elt Ideal)) : FVec Ideal S1700000 .f32 :=
  (mulf (Host.gather gather_S100000_S1700000x1_S1700000_n_0_n_n_0_1_1 (dinvOf a1) (broadcastInDim S1700000x1 ![0] bcast_S1700000_S1700000x1_0 (select (cmpi .slt (srcOf a1) (broadcastInDim S1700000 ![] bcast_S_S1700000 (constantI S_ 32 0#32))) (addi (srcOf a1) (broadcastInDim S1700000 ![] bcast_S_S1700000 (constantI S_ 32 100000#32))) (srcOf a1)))) (Host.gather gather_S100000_S1700000x1_S1700000_n_0_n_n_0_1_1 (dinvOf a1) (broadcastInDim S1700000x1 ![0] bcast_S1700000_S1700000x1_0 (select (cmpi .slt (dstOf a1) (broadcastInDim S1700000 ![] bcast_S_S1700000 (constantI S_ 32 0#32))) (addi (dstOf a1) (broadcastInDim S1700000 ![] bcast_S_S1700000 (constantI S_ 32 100000#32))) (dstOf a1)))))

def aggOf (h : FVec Ideal S100000x128 .f32) (a1 : (⟨S2x1600000, .i32⟩ : BufTy).Contents (Elt Ideal)) : FVec Ideal S100000x128 .f32 :=
  (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dstOf a1)) (mulf (Host.gather gather_S100000x128_S1700000x1_S1700000x128_1_0_n_n_0_1_1128 h (broadcastInDim S1700000x1 ![0] bcast_S1700000_S1700000x1_0 (select (cmpi .slt (srcOf a1) (broadcastInDim S1700000 ![] bcast_S_S1700000 (constantI S_ 32 0#32))) (addi (srcOf a1) (broadcastInDim S1700000 ![] bcast_S_S1700000 (constantI S_ 32 100000#32))) (srcOf a1)))) (broadcastInDim S1700000x128 ![0, 1] bcast_S1700000x1_S1700000x128_0_1 (broadcastInDim S1700000x1 ![0] bcast_S1700000_S1700000x1_0 (normOf a1)))))

def layer (x : FVec Ideal S100000x128 .f32) (w : FVec Ideal S128x128 .f32) (b : FVec Ideal S128 .f32)
    (a1 : (⟨S2x1600000, .i32⟩ : BufTy).Contents (Elt Ideal)) : FVec Ideal S100000x128 .f32 :=
  (maximumf (addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dstOf a1)) (mulf (Host.gather gather_S100000x128_S1700000x1_S1700000x128_1_0_n_n_0_1_1128 (Host.dotGeneral dot_S100000x128_S128x128_S100000x128_1_0_0_1_n_n none x w) (broadcastInDim S1700000x1 ![0] bcast_S1700000_S1700000x1_0 (select (cmpi .slt (srcOf a1) (broadcastInDim S1700000 ![] bcast_S_S1700000 (constantI S_ 32 0#32))) (addi (srcOf a1) (broadcastInDim S1700000 ![] bcast_S_S1700000 (constantI S_ 32 100000#32))) (srcOf a1)))) (broadcastInDim S1700000x128 ![0, 1] bcast_S1700000x1_S1700000x128_0_1 (broadcastInDim S1700000x1 ![0] bcast_S1700000_S1700000x1_0 (normOf a1))))) (broadcastInDim S100000x128 ![0, 1] bcast_S1x128_S100000x128_0_1 (broadcastInDim S1x128 ![1] bcast_S128_S1x128_1 b))) (broadcastInDim S100000x128 ![] bcast_S_S100000x128 (constant S_ .f32 0x00000000#32)))

/-- A layer is the aggregation of the projected features, plus the bias row, clamped at zero. -/
theorem layer_eq (x : FVec Ideal S100000x128 .f32) (w : FVec Ideal S128x128 .f32) (b : FVec Ideal S128 .f32)
    (a1 : (⟨S2x1600000, .i32⟩ : BufTy).Contents (Elt Ideal)) :
    layer x w b a1 = maximumf (addf (aggOf (Host.dotGeneral dot_S100000x128_S128x128_S100000x128_1_0_0_1_n_n none x w) a1)
        (broadcastInDim S100000x128 ![0, 1] bcast_S1x128_S100000x128_0_1 (broadcastInDim S1x128 ![1] bcast_S128_S1x128_1 b)))
      (broadcastInDim S100000x128 ![] bcast_S_S100000x128 (constant S_ .f32 0x00000000#32)) := rfl

def wOf0 (a3 : FVec Ideal S5x128x128 .f32) : FVec Ideal S128x128 .f32 :=
  (shapeCast _ (extractStridedSlice S1x128x128 ![0, 0, 0] a3 slices_S5x128x128_S1x128x128_0_0_0) shapeCasts_S1x128x128_S128x128)

def bOf0 (a4 : FVec Ideal S5x128 .f32) : FVec Ideal S128 .f32 :=
  (shapeCast _ (extractStridedSlice S1x128 ![0, 0] a4 slices_S5x128_S1x128_0_0) shapeCasts_S1x128_S128)

def wOf1 (a3 : FVec Ideal S5x128x128 .f32) : FVec Ideal S128x128 .f32 :=
  (shapeCast _ (extractStridedSlice S1x128x128 ![1, 0, 0] a3 slices_S5x128x128_S1x128x128_1_0_0) shapeCasts_S1x128x128_S128x128)

def bOf1 (a4 : FVec Ideal S5x128 .f32) : FVec Ideal S128 .f32 :=
  (shapeCast _ (extractStridedSlice S1x128 ![1, 0] a4 slices_S5x128_S1x128_1_0) shapeCasts_S1x128_S128)

def wOf2 (a3 : FVec Ideal S5x128x128 .f32) : FVec Ideal S128x128 .f32 :=
  (shapeCast _ (extractStridedSlice S1x128x128 ![2, 0, 0] a3 slices_S5x128x128_S1x128x128_2_0_0) shapeCasts_S1x128x128_S128x128)

def bOf2 (a4 : FVec Ideal S5x128 .f32) : FVec Ideal S128 .f32 :=
  (shapeCast _ (extractStridedSlice S1x128 ![2, 0] a4 slices_S5x128_S1x128_2_0) shapeCasts_S1x128_S128)

def wOf3 (a3 : FVec Ideal S5x128x128 .f32) : FVec Ideal S128x128 .f32 :=
  (shapeCast _ (extractStridedSlice S1x128x128 ![3, 0, 0] a3 slices_S5x128x128_S1x128x128_3_0_0) shapeCasts_S1x128x128_S128x128)

def bOf3 (a4 : FVec Ideal S5x128 .f32) : FVec Ideal S128 .f32 :=
  (shapeCast _ (extractStridedSlice S1x128 ![3, 0] a4 slices_S5x128_S1x128_3_0) shapeCasts_S1x128_S128)

def wOf4 (a3 : FVec Ideal S5x128x128 .f32) : FVec Ideal S128x128 .f32 :=
  (shapeCast _ (extractStridedSlice S1x128x128 ![4, 0, 0] a3 slices_S5x128x128_S1x128x128_4_0_0) shapeCasts_S1x128x128_S128x128)

def bOf4 (a4 : FVec Ideal S5x128 .f32) : FVec Ideal S128 .f32 :=
  (shapeCast _ (extractStridedSlice S1x128 ![4, 0] a4 slices_S5x128_S1x128_4_0) shapeCasts_S1x128_S128)

def poolOf (x : FVec Ideal S100000x128 .f32) (a2 : (⟨S100000, .i32⟩ : BufTy).Contents (Elt Ideal)) : FVec Ideal S512x128 .f32 :=
  (Host.divf (Host.scatterAdd scatter_S512x128_S100000x1_S100000x128_1_0_0_1 (broadcastInDim S512x128 ![] bcast_S_S512x128 (constant S_ .f32 0x00000000#32)) (broadcastInDim S100000x1 ![0] bcast_S100000_S100000x1_0 a2) x) (broadcastInDim S512x128 ![0, 1] bcast_S512x1_S512x128_0_1 (broadcastInDim S512x1 ![0] bcast_S512_S512x1_0 (maximumf (Host.scatterAdd scatter_S512_S100000x1_S100000_n_0_0_1 (broadcastInDim S512 ![] bcast_S_S512 (constant S_ .f32 0x00000000#32)) (broadcastInDim S100000x1 ![0] bcast_S100000_S100000x1_0 a2) (broadcastInDim S100000 ![] bcast_S_S100000 (constant S_ .f32 0x3F800000#32))) (broadcastInDim S512 ![] bcast_S_S512 (constant S_ .f32 0x3F800000#32))))))

def poolHead (x : FVec Ideal S100000x128 .f32) (a2 : (⟨S100000, .i32⟩ : BufTy).Contents (Elt Ideal)) (a5 : FVec Ideal S128x10 .f32) (a6 : FVec Ideal S10 .f32) :
    FVec Ideal S512x10 .f32 :=
  addf (Host.dotGeneral dot_S512x128_S128x10_S512x10_1_0_0_1_n_n none (Host.divf (Host.scatterAdd scatter_S512x128_S100000x1_S100000x128_1_0_0_1 (broadcastInDim S512x128 ![] bcast_S_S512x128 (constant S_ .f32 0x00000000#32)) (broadcastInDim S100000x1 ![0] bcast_S100000_S100000x1_0 a2) x) (broadcastInDim S512x128 ![0, 1] bcast_S512x1_S512x128_0_1 (broadcastInDim S512x1 ![0] bcast_S512_S512x1_0 (maximumf (Host.scatterAdd scatter_S512_S100000x1_S100000_n_0_0_1 (broadcastInDim S512 ![] bcast_S_S512 (constant S_ .f32 0x00000000#32)) (broadcastInDim S100000x1 ![0] bcast_S100000_S100000x1_0 a2) (broadcastInDim S100000 ![] bcast_S_S100000 (constant S_ .f32 0x3F800000#32))) (broadcastInDim S512 ![] bcast_S_S512 (constant S_ .f32 0x3F800000#32)))))) a5) (broadcastInDim S512x10 ![0, 1] bcast_S1x10_S512x10_0_1 (broadcastInDim S1x10 ![1] bcast_S10_S1x10_1 a6))

/-- The head is the pooled features times the head weight, plus the bias row. -/
theorem poolHead_eq (x : FVec Ideal S100000x128 .f32) (a2 : (⟨S100000, .i32⟩ : BufTy).Contents (Elt Ideal)) (a5 : FVec Ideal S128x10 .f32) (a6 : FVec Ideal S10 .f32) :
    poolHead x a2 a5 a6 = addf (Host.dotGeneral dot_S512x128_S128x10_S512x10_1_0_0_1_n_n none (poolOf x a2) a5)
      (broadcastInDim S512x10 ![0, 1] bcast_S1x10_S512x10_0_1 (broadcastInDim S1x10 ![1] bcast_S10_S1x10_1 a6)) := rfl

def net (a0 : FVec Ideal S100000x128 .f32) (a1 : (⟨S2x1600000, .i32⟩ : BufTy).Contents (Elt Ideal)) (a2 : (⟨S100000, .i32⟩ : BufTy).Contents (Elt Ideal)) (a3 : FVec Ideal S5x128x128 .f32)
    (a4 : FVec Ideal S5x128 .f32) (a5 : FVec Ideal S128x10 .f32) (a6 : FVec Ideal S10 .f32) : FVec Ideal S512x10 .f32 :=
  addf (Host.dotGeneral dot_S512x128_S128x10_S512x10_1_0_0_1_n_n none (Host.divf (Host.scatterAdd scatter_S512x128_S100000x1_S100000x128_1_0_0_1 (broadcastInDim S512x128 ![] bcast_S_S512x128 (constant S_ .f32 0x00000000#32)) (broadcastInDim S100000x1 ![0] bcast_S100000_S100000x1_0 a2) (layer (layer (layer (layer (layer a0 (wOf0 a3) (bOf0 a4) a1) (wOf1 a3) (bOf1 a4) a1) (wOf2 a3) (bOf2 a4) a1) (wOf3 a3) (bOf3 a4) a1) (wOf4 a3) (bOf4 a4) a1)) (broadcastInDim S512x128 ![0, 1] bcast_S512x1_S512x128_0_1 (broadcastInDim S512x1 ![0] bcast_S512_S512x1_0 (maximumf (Host.scatterAdd scatter_S512_S100000x1_S100000_n_0_0_1 (broadcastInDim S512 ![] bcast_S_S512 (constant S_ .f32 0x00000000#32)) (broadcastInDim S100000x1 ![0] bcast_S100000_S100000x1_0 a2) (broadcastInDim S100000 ![] bcast_S_S100000 (constant S_ .f32 0x3F800000#32))) (broadcastInDim S512 ![] bcast_S_S512 (constant S_ .f32 0x3F800000#32)))))) a5) (broadcastInDim S512x10 ![0, 1] bcast_S1x10_S512x10_0_1 (broadcastInDim S1x10 ![1] bcast_S10_S1x10_1 a6))

end Cert.Net

end
-- ==== Proof.RefNet.lean ====
/-
  The reference program's result is `Cert.Net.net` of its arguments.

  The reference's run ends with its result buffer at the composed term of its host operations applied to the launch
  contents of the arguments. That term is `net` with its definitions unfolded — `net`'s pieces were cut out of it —,
  so the equation holds by unfolding, and the run can be re-posted with the result named `net …`.
-/
import proofs.«164210_j54150947668273_1_alg».proof.Proof.RefRun
import proofs.«164210_j54150947668273_1_alg».proof.Proof.Net

set_option maxRecDepth 16384

noncomputable section

namespace Cert.ReferenceIdeal.RefNet

open Cert.ReferenceIdeal Cert.ReferenceIdeal.Gen Idealize.ShloMosaic Idealize.ShloMosaic.TcCoe Idealize.SL.Sem

/-- The composed result term is the network of the argument arrays. -/
theorem result_eq (m : (ℓ : Loc nD τ sig) → Buf (Elt Ideal) ℓ) (c : Dev nD) :
    Cert.ReferenceIdeal.ValueP.res_main_v155 (F := Ideal) m c
      = Cert.Net.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.ValueP.res_main_v155
  rfl

/-- The reference's run, its result named: every weakly fair execution terminates with the result buffer at the
    network of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v155)
        = Cert.Net.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (result_eq m c), (h c).2⟩)
    (Cert.ReferenceIdeal.ValueP.run (F := Ideal) m ρ)

end Cert.ReferenceIdeal.RefNet

end
-- ==== Proof.ChainTac.lean ====
/-
  Two small tactics for reading a buffer back through a stretch of host operations.

  `read_results` turns `StableHlo.after ops V b` into the operations' functions applied to `V` at the buffers they read:
  one simplifier pass over the fold, then the remaining results one rewrite at a time (the pass cannot rewrite under the
  dependent pairs that a `concatenate` lists its operands in). `carry_host ops` closes `after ops V b = V b` for a
  buffer `b` that no operation of `ops` writes.
-/
import Idealize.ShloMosaic.Lib.StableHlo.Run

namespace Cert.ChainTac

open Idealize.ShloMosaic Idealize.ShloMosaic.StableHlo

/-- The results left after the simplifier pass, one rewrite at a time. -/
macro "finish_results" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

macro "read_results" : tactic => `(tactic| ((try after_results_simp); finish_results))

/-- A buffer that no operation of the stretch writes keeps its contents. -/
macro "carry_host" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

end Cert.ChainTac
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.Tile.lean ====
/-
  The mathematics of one row tile, with no program in sight.

  A kernel of this network works on a tile of `M` consecutive rows (rows `off … off + M − 1`) of an array of `R` rows.
  Three facts, each read at one element over the extended reals:
  * the tile of a matrix product is the product's rows: the kernel's `matmul` of the tile with the whole right operand
    into a zero accumulator, at `(p, q)`, and the host's `dot_general` of the whole arrays, at `(off + p, q)`, are
    the same sum over the contracted axis `Σ_k X (off + p, k) · W (k, q)` (a format change is the identity here);
  * adding a row vector to every row and clamping at zero from below commutes with taking the tile;
  * the same for adding a row vector alone.
  A one-row array `[1, N]` spread over the rows reads its entry `(0, q)` at every `(p, q)`, whether it is spread by the
  kernel's `broadcast` or by the host's `broadcast_in_dim`; a length-`N` vector viewed as `[1, N]` by a reshape or by
  `broadcast_in_dim` along axis 1 is the same one-row array.
-/
import Idealize.ShloMosaic.PureOps.Ideal.Laws
import Idealize.ShloMosaic.Lib.ValueIdx
import Idealize.ShloMosaic.Lib.Pipeline.Value
import proofs.«164210_j54150947668273_1_alg».proof.Proof.LibPlainDot

noncomputable section

namespace Cert.Tile

open Idealize.ShloMosaic Idealize.ShloMosaic.ValueIdx
open scoped BigOperators

variable {R M K N : Nat}

/-- The tile of a product is the product's rows. `x0` is the tile (rows `off + ·` of `X`), `x1` the right operand. -/
theorem matmul_rows {φ₁ φ₂ φ₃ φ₄ : FTy} (X : FVec Ideal ⟨2, ![R, K]⟩ φ₁) (W : FVec Ideal ⟨2, ![K, N]⟩ φ₂)
    (x0 : FVec Ideal ⟨2, ![M, K]⟩ φ₃) (x1 : FVec Ideal ⟨2, ![K, N]⟩ φ₄) (off : Nat)
    (h0 : ∀ (y : (⟨2, ![M, K]⟩ : Shape).Idx) (i : (⟨2, ![R, K]⟩ : Shape).Idx),
      (i 0).val = off + (y 0).val → (i 1).val = (y 1).val → x0 y = X i)
    (h1 : ∀ y, x1 y = W y)
    (j : (⟨2, ![M, N]⟩ : Shape).Idx) (i : (⟨2, ![R, N]⟩ : Shape).Idx)
    (hi0 : (i 0).val = off + (j 0).val) (hi1 : (i 1).val = (j 1).val) :
    FloatOps.matmul (DotDims.plain M K N) none x0 x1 (constant ⟨2, ![M, N]⟩ .f32 0x00000000#32) j
      = FloatOps.dotGeneral (DotDims.plain R K N) none .single X W i := by
  rw [PlainDot.matmul_apply, PlainDot.dotGeneral_apply]
  refine Finset.sum_congr rfl fun k _ => ?_
  rw [h0 (ix2 ⟨(j 0).val, idx2_lt0 j⟩ k) (ix2 ⟨(i 0).val, idx2_lt0 i⟩ k) hi0 rfl, h1]
  exact congrArg (fun q => X (ix2 ⟨(i 0).val, idx2_lt0 i⟩ k) * W (ix2 k q)) (Fin.ext hi1.symm)

/-- A one-row array spread over `M` rows by the kernel's `broadcast`, read at `j`: its entry in `j`'s column. -/
theorem spread_rows_apply (x1 : (⟨2, ![1, N]⟩ : Shape).Idx → EReal) (hb : (⟨2, ![1, N]⟩ : Shape).Broadcasts ⟨2, ![M, N]⟩)
    (j : (⟨2, ![M, N]⟩ : Shape).Idx) :
    broadcastTo ⟨2, ![M, N]⟩ x1 hb j = x1 (ix2 (0 : Fin 1) ⟨(j 1).val, idx2_lt1 j⟩) := by
  refine broadcastTo_apply x1 hb j _ fun a => ?_
  match a with
  | ⟨0, _⟩ => exact (if_pos rfl).symm
  | ⟨1, _⟩ =>
    show (j 1).val = if N = 1 then 0 else (j 1).val
    split_ifs with h
    · have := idx2_lt1 j; omega
    · rfl

/-- The same array spread by the host's `broadcast_in_dim` along both axes. -/
theorem spread_rows_inDim_apply (B : (⟨2, ![1, N]⟩ : Shape).Idx → EReal)
    (hb : (⟨2, ![1, N]⟩ : Shape).BroadcastsInDim ⟨2, ![R, N]⟩ ![0, 1]) (i : (⟨2, ![R, N]⟩ : Shape).Idx) :
    broadcastInDim ⟨2, ![R, N]⟩ ![0, 1] hb B i = B (ix2 (0 : Fin 1) ⟨(i 1).val, idx2_lt1 i⟩) := by
  refine broadcastInDim_apply _ hb B i _ fun a => ?_
  match a with
  | ⟨0, _⟩ => exact (if_pos rfl).symm
  | ⟨1, _⟩ =>
    show (i 1).val = if N = 1 then 0 else (i 1).val
    split_ifs with h
    · have := idx2_lt1 i; omega
    · rfl

/-- A scalar spread over a whole array by `broadcast_in_dim` reads the scalar everywhere. -/
theorem spread_scalar_apply {s : Shape} (z : (⟨0, ![]⟩ : Shape).Idx → EReal)
    (hb : (⟨0, ![]⟩ : Shape).BroadcastsInDim s ![]) (i : s.Idx) :
    broadcastInDim s ![] hb z i = z ix0 :=
  broadcastInDim_apply _ hb z i ix0 fun a => a.elim0

/-- Adding a row vector to every row and clamping at zero from below commutes with taking the tile. -/
theorem bias_relu_rows (S : FVec Ideal ⟨2, ![R, N]⟩ .f32) (B : FVec Ideal ⟨2, ![1, N]⟩ .f32)
    (x0 : FVec Ideal ⟨2, ![M, N]⟩ .f32) (x1 : FVec Ideal ⟨2, ![1, N]⟩ .f32) (off : Nat)
    (h0 : ∀ (y : (⟨2, ![M, N]⟩ : Shape).Idx) (i : (⟨2, ![R, N]⟩ : Shape).Idx),
      (i 0).val = off + (y 0).val → (i 1).val = (y 1).val → x0 y = S i)
    (h1 : ∀ y, x1 y = B y)
    (hb : (⟨2, ![1, N]⟩ : Shape).Broadcasts ⟨2, ![M, N]⟩)
    (hb2 : (⟨2, ![1, N]⟩ : Shape).BroadcastsInDim ⟨2, ![R, N]⟩ ![0, 1])
    (hb0 : (⟨0, ![]⟩ : Shape).BroadcastsInDim ⟨2, ![R, N]⟩ ![])
    (j : (⟨2, ![M, N]⟩ : Shape).Idx) (i : (⟨2, ![R, N]⟩ : Shape).Idx)
    (hi0 : (i 0).val = off + (j 0).val) (hi1 : (i 1).val = (j 1).val) :
    maximumf (addf x0 (broadcastTo ⟨2, ![M, N]⟩ x1 hb)) (broadcast ⟨2, ![M, N]⟩ (Scalar.ofBits (F := Ideal) .f32 0x00000000#32)) j
      = maximumf (addf S (broadcastInDim ⟨2, ![R, N]⟩ ![0, 1] hb2 B))
          (broadcastInDim ⟨2, ![R, N]⟩ ![] hb0 (constant (F := Ideal) ⟨0, ![]⟩ .f32 0x00000000#32)) i := by
  rw [maximumf_apply, maximumf_apply, addf_apply, addf_apply, broadcast_apply, spread_rows_apply, spread_rows_inDim_apply,
    spread_scalar_apply, h0 j i hi0 hi1, h1]
  have e : (⟨(j 1).val, idx2_lt1 j⟩ : Fin N) = ⟨(i 1).val, idx2_lt1 i⟩ := Fin.ext hi1.symm
  rw [e]
  rfl

/-- Adding a row vector to every row commutes with taking the tile. -/
theorem bias_rows (S : FVec Ideal ⟨2, ![R, N]⟩ .f32) (B : FVec Ideal ⟨2, ![1, N]⟩ .f32)
    (x0 : FVec Ideal ⟨2, ![M, N]⟩ .f32) (x1 : FVec Ideal ⟨2, ![1, N]⟩ .f32)
    (j : (⟨2, ![M, N]⟩ : Shape).Idx) (i : (⟨2, ![R, N]⟩ : Shape).Idx)
    (h0 : x0 j = S i) (h1 : ∀ y, x1 y = B y)
    (hb : (⟨2, ![1, N]⟩ : Shape).Broadcasts ⟨2, ![M, N]⟩)
    (hb2 : (⟨2, ![1, N]⟩ : Shape).BroadcastsInDim ⟨2, ![R, N]⟩ ![0, 1])
    (hi1 : (i 1).val = (j 1).val) :
    addf x0 (broadcastTo ⟨2, ![M, N]⟩ x1 hb) j = addf S (broadcastInDim ⟨2, ![R, N]⟩ ![0, 1] hb2 B) i := by
  rw [addf_apply, addf_apply, spread_rows_apply, spread_rows_inDim_apply, h0, h1]
  have e : (⟨(j 1).val, idx2_lt1 j⟩ : Fin N) = ⟨(i 1).val, idx2_lt1 i⟩ := Fin.ext hi1.symm
  rw [e]

/-- A length-`N` vector viewed as one row: the reshape and `broadcast_in_dim` along axis 1 give the same array. -/
theorem row_of_vec (b : (⟨1, ![N]⟩ : Shape).Idx → EReal) (hc : (⟨1, ![N]⟩ : Shape).ShapeCasts ⟨2, ![1, N]⟩)
    (hb : (⟨1, ![N]⟩ : Shape).BroadcastsInDim ⟨2, ![1, N]⟩ ![1]) :
    shapeCast ⟨2, ![1, N]⟩ b hc = broadcastInDim ⟨2, ![1, N]⟩ ![1] hb b := by
  funext y
  have hy0 : (y 0).val = 0 := by have := idx2_lt0 y; omega
  rw [shapeCast_apply b hc y (ix1 ⟨(y 1).val, idx2_lt1 y⟩) (by
        rw [Shape.rowMajor_val_one, Shape.rowMajor_val_two]; show (y 1).val = (y 0).val * N + (y 1).val; rw [hy0]; omega),
    broadcastInDim_apply _ hb b y (ix1 ⟨(y 1).val, idx2_lt1 y⟩) (fun a => by
      match a with
      | ⟨0, _⟩ =>
        show (y 1).val = if N = 1 then 0 else (y 1).val
        split_ifs with h
        · have := idx2_lt1 y; omega
        · rfl)]

end Cert.Tile

end
-- ==== Proof.Stretch.lean ====
/-
  What each stretch of host operations leaves in the buffers a later segment reads, from any contents `V`.

  The stretches before the first region build the edge lists with self loops, the guarded `deg⁻¹ᐟ²` and the per-edge
  normaliser, and cut layer 0's weight; the stretch after each projection region gathers the projected rows along
  `src`, scales them by the normaliser, scatter-adds them along `dst`, and views the layer's bias as one row; the
  stretch after each clamping region cuts the next weight; the last stretch pools by graph id and views the head's bias
  as one row. Each result buffer, read back through its stretch, is the corresponding function of `Cert.Net` of the
  buffers the stretch reads; a length-`N` vector viewed as one row by a reshape is the one-row array the reference
  obtains by `broadcast_in_dim` along axis 1 (`Cert.Tile.row_of_vec`).
-/
import proofs.«164210_j54150947668273_1_alg».proof.Defs
import proofs.«164210_j54150947668273_1_alg».proof.Proof.Gen.KernelIdeal.Frame
import proofs.«164210_j54150947668273_1_alg».proof.Proof.Net
import proofs.«164210_j54150947668273_1_alg».proof.Proof.ChainTac
import proofs.«164210_j54150947668273_1_alg».proof.Proof.Tile
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo
open Cert.ChainTac

variable (V : Valuation τ sig (Elt Ideal))

/-- The source list: row 0 of the edge array followed by the self loops. -/
theorem src0 : StableHlo.after hostOps0 V (Proc.devRef .tc main_v3) = Cert.Net.srcOf (V (Proc.devRef .tc main_arg1)) := by
  read_results
  rfl

/-- The destination list: row 1 of the edge array followed by the self loops. -/
theorem dst0 : StableHlo.after hostOps0 V (Proc.devRef .tc main_v6) = Cert.Net.dstOf (V (Proc.devRef .tc main_arg1)) := by
  read_results
  rfl

/-- The in-degree with self loops: a scatter-add of ones along the destination list `d`. -/
def degOf (d : (⟨Cert.ReferenceIdeal.S1700000, .i32⟩ : BufTy).Contents (Elt Ideal)) : FVec Ideal Cert.ReferenceIdeal.S100000 .f32 :=
  Host.scatterAdd Cert.ReferenceIdeal.scatter_S100000_S1700000x1_S1700000_n_0_0_1 (broadcastInDim Cert.ReferenceIdeal.S100000 ![] Cert.ReferenceIdeal.Facts₀.bcast_S_S100000 (constant (F := Ideal) Cert.ReferenceIdeal.S_ .f32 0x00000000#32))
    (broadcastInDim Cert.ReferenceIdeal.S1700000x1 ![0] Cert.ReferenceIdeal.Facts₀.bcast_S1700000_S1700000x1_0 d)
    (broadcastInDim Cert.ReferenceIdeal.S1700000 ![] Cert.ReferenceIdeal.Facts₀.bcast_S_S1700000 (constant (F := Ideal) Cert.ReferenceIdeal.S_ .f32 0x3F800000#32))

/-- Where the in-degree is positive. -/
theorem gt0 : StableHlo.after hostOps0 V (Proc.devRef .tc main_v12)
    = cmpf (F := Ideal) .ogt (degOf (Cert.Net.dstOf (V (Proc.devRef .tc main_arg1)))) (broadcastInDim Cert.ReferenceIdeal.S100000 ![] Cert.ReferenceIdeal.Facts₀.bcast_S_S100000 (constant (F := Ideal) Cert.ReferenceIdeal.S_ .f32 0x00000000#32)) := by
  read_results
  rfl

/-- The reciprocal square root of the in-degree. -/
theorem rs0 : StableHlo.after hostOps0 V (Proc.devRef .tc main_v13) = Host.rsqrt (degOf (Cert.Net.dstOf (V (Proc.devRef .tc main_arg1)))) := by
  read_results
  rfl

/-- The zero the guard selects. -/
theorem z0 : StableHlo.after hostOps0 V (Proc.devRef .tc main_cst_2) = constant (F := Ideal) Cert.ReferenceIdeal.S_ .f32 0x00000000#32 := by
  read_results

/-- The typed references of the guard's three operations carry contents unchanged: their transports are along
    equations between one and the same buffer type. -/
theorem ofBuf_toBuf {T : BufTy} (x : StableHlo.TRef sig T) (v : T.Contents (Elt Ideal)) : x.ofBuf (x.toBuf v) = v := by
  obtain ⟨r, h, hd, hu⟩ := x
  subst h
  rfl
theorem ofBuf12 (x : main_v12.ty.Contents (Elt Ideal)) :
    (StableHlo.TRef.of main_v12 : StableHlo.TRef sig ⟨S100000, .i1⟩).ofBuf (Val := Elt Ideal) x = x := rfl
theorem ofBuf13 (x : main_v13.ty.Contents (Elt Ideal)) :
    (StableHlo.TRef.of main_v13 : StableHlo.TRef sig ⟨S100000, .f32⟩).ofBuf (Val := Elt Ideal) x = x := rfl
theorem ofBufc2 (x : main_cst_2.ty.Contents (Elt Ideal)) :
    (StableHlo.TRef.of main_cst_2 : StableHlo.TRef sig ⟨S_, .f32⟩).ofBuf (Val := Elt Ideal) x = x := rfl
theorem toBuf14 (x : (⟨S100000, .f32⟩ : BufTy).Contents (Elt Ideal)) :
    (StableHlo.TRef.of main_v14 : StableHlo.TRef sig ⟨S100000, .f32⟩).toBuf (Val := Elt Ideal) x = x := rfl

/-- `deg⁻¹ᐟ²` guarded at zero, from the comparison, the reciprocal square root and the zero as the second stretch finds them. -/
theorem dinv1 (a1 : (⟨S2x1600000, .i32⟩ : BufTy).Contents (Elt Ideal))
    (h12 : V (Proc.devRef .tc main_v12) = cmpf (F := Ideal) .ogt (degOf (Cert.Net.dstOf a1)) (broadcastInDim Cert.ReferenceIdeal.S100000 ![] Cert.ReferenceIdeal.Facts₀.bcast_S_S100000 (constant (F := Ideal) Cert.ReferenceIdeal.S_ .f32 0x00000000#32)))
    (h13 : V (Proc.devRef .tc main_v13) = Host.rsqrt (degOf (Cert.Net.dstOf a1)))
    (hz : V (Proc.devRef .tc main_cst_2) = constant (F := Ideal) Cert.ReferenceIdeal.S_ .f32 0x00000000#32) :
    StableHlo.after hostOps0_1 V (Proc.devRef .tc main_v14) = Cert.Net.dinvOf a1 := by
  read_results
  rw [h12, h13, hz]
  simp only [ofBuf_toBuf, ofBuf12, ofBuf13, ofBufc2, toBuf14]
  rfl

/-- The per-edge normaliser, from the edge lists and `deg⁻¹ᐟ²` as the third stretch finds them. -/
theorem norm2 (a1 : (⟨S2x1600000, .i32⟩ : BufTy).Contents (Elt Ideal))
    (h3 : V (Proc.devRef .tc main_v3) = Cert.Net.srcOf a1) (h6 : V (Proc.devRef .tc main_v6) = Cert.Net.dstOf a1)
    (h14 : V (Proc.devRef .tc main_v14) = Cert.Net.dinvOf a1) :
    StableHlo.after hostOps0_2 V (Proc.devRef .tc main_v29) = Cert.Net.normOf a1 := by
  read_results
  rw [h3, h6, h14]
  rfl

/-- Layer 0's weight. -/
theorem w0 : StableHlo.after hostOps0_2 V (Proc.devRef .tc main_v31) = Cert.Net.wOf0 (V (Proc.devRef .tc main_arg3)) := by
  read_results
  rfl

/-- Layer 0: the aggregation of the projected rows. -/
theorem agg0 (a1 : (⟨S2x1600000, .i32⟩ : BufTy).Contents (Elt Ideal))
    (h3 : V (Proc.devRef .tc main_v3) = Cert.Net.srcOf a1) (h6 : V (Proc.devRef .tc main_v6) = Cert.Net.dstOf a1)
    (h29 : V (Proc.devRef .tc main_v29) = Cert.Net.normOf a1) :
    StableHlo.after hostOps1 V (Proc.devRef .tc main_v45) = Cert.Net.aggOf (V (Proc.devRef .tc main_v32)) a1 := by
  read_results
  rw [h3, h6, h29]
  rfl

/-- Layer 0: the bias as one row. -/
theorem brow0 : StableHlo.after hostOps1 V (Proc.devRef .tc main_v48)
    = broadcastInDim Cert.ReferenceIdeal.S1x128 ![1] Cert.ReferenceIdeal.Facts₀.bcast_S128_S1x128_1 (Cert.Net.bOf0 (V (Proc.devRef .tc main_arg4))) := by
  read_results
  exact Cert.Tile.row_of_vec (N := 128) _ _ _

/-- Layer 1: the aggregation of the projected rows. -/
theorem agg1 (a1 : (⟨S2x1600000, .i32⟩ : BufTy).Contents (Elt Ideal))
    (h3 : V (Proc.devRef .tc main_v3) = Cert.Net.srcOf a1) (h6 : V (Proc.devRef .tc main_v6) = Cert.Net.dstOf a1)
    (h29 : V (Proc.devRef .tc main_v29) = Cert.Net.normOf a1) :
    StableHlo.after hostOps3 V (Proc.devRef .tc main_v65) = Cert.Net.aggOf (V (Proc.devRef .tc main_v52)) a1 := by
  read_results
  rw [h3, h6, h29]
  rfl

/-- Layer 1: the bias as one row. -/
theorem brow1 : StableHlo.after hostOps3 V (Proc.devRef .tc main_v68)
    = broadcastInDim Cert.ReferenceIdeal.S1x128 ![1] Cert.ReferenceIdeal.Facts₀.bcast_S128_S1x128_1 (Cert.Net.bOf1 (V (Proc.devRef .tc main_arg4))) := by
  read_results
  exact Cert.Tile.row_of_vec (N := 128) _ _ _

/-- Layer 1's weight. -/
theorem w1 : StableHlo.after hostOps2 V (Proc.devRef .tc main_v51) = Cert.Net.wOf1 (V (Proc.devRef .tc main_arg3)) := by
  read_results
  rfl

/-- Layer 2: the aggregation of the projected rows. -/
theorem agg2 (a1 : (⟨S2x1600000, .i32⟩ : BufTy).Contents (Elt Ideal))
    (h3 : V (Proc.devRef .tc main_v3) = Cert.Net.srcOf a1) (h6 : V (Proc.devRef .tc main_v6) = Cert.Net.dstOf a1)
    (h29 : V (Proc.devRef .tc main_v29) = Cert.Net.normOf a1) :
    StableHlo.after hostOps5 V (Proc.devRef .tc main_v85) = Cert.Net.aggOf (V (Proc.devRef .tc main_v72)) a1 := by
  read_results
  rw [h3, h6, h29]
  rfl

/-- Layer 2: the bias as one row. -/
theorem brow2 : StableHlo.after hostOps5 V (Proc.devRef .tc main_v88)
    = broadcastInDim Cert.ReferenceIdeal.S1x128 ![1] Cert.ReferenceIdeal.Facts₀.bcast_S128_S1x128_1 (Cert.Net.bOf2 (V (Proc.devRef .tc main_arg4))) := by
  read_results
  exact Cert.Tile.row_of_vec (N := 128) _ _ _

/-- Layer 2's weight. -/
theorem w2 : StableHlo.after hostOps4 V (Proc.devRef .tc main_v71) = Cert.Net.wOf2 (V (Proc.devRef .tc main_arg3)) := by
  read_results
  rfl

/-- Layer 3: the aggregation of the projected rows. -/
theorem agg3 (a1 : (⟨S2x1600000, .i32⟩ : BufTy).Contents (Elt Ideal))
    (h3 : V (Proc.devRef .tc main_v3) = Cert.Net.srcOf a1) (h6 : V (Proc.devRef .tc main_v6) = Cert.Net.dstOf a1)
    (h29 : V (Proc.devRef .tc main_v29) = Cert.Net.normOf a1) :
    StableHlo.after hostOps7 V (Proc.devRef .tc main_v105) = Cert.Net.aggOf (V (Proc.devRef .tc main_v92)) a1 := by
  read_results
  rw [h3, h6, h29]
  rfl

/-- Layer 3: the bias as one row. -/
theorem brow3 : StableHlo.after hostOps7 V (Proc.devRef .tc main_v108)
    = broadcastInDim Cert.ReferenceIdeal.S1x128 ![1] Cert.ReferenceIdeal.Facts₀.bcast_S128_S1x128_1 (Cert.Net.bOf3 (V (Proc.devRef .tc main_arg4))) := by
  read_results
  exact Cert.Tile.row_of_vec (N := 128) _ _ _

/-- Layer 3's weight. -/
theorem w3 : StableHlo.after hostOps6 V (Proc.devRef .tc main_v91) = Cert.Net.wOf3 (V (Proc.devRef .tc main_arg3)) := by
  read_results
  rfl

/-- Layer 4: the aggregation of the projected rows. -/
theorem agg4 (a1 : (⟨S2x1600000, .i32⟩ : BufTy).Contents (Elt Ideal))
    (h3 : V (Proc.devRef .tc main_v3) = Cert.Net.srcOf a1) (h6 : V (Proc.devRef .tc main_v6) = Cert.Net.dstOf a1)
    (h29 : V (Proc.devRef .tc main_v29) = Cert.Net.normOf a1) :
    StableHlo.after hostOps9 V (Proc.devRef .tc main_v125) = Cert.Net.aggOf (V (Proc.devRef .tc main_v112)) a1 := by
  read_results
  rw [h3, h6, h29]
  rfl

/-- Layer 4: the bias as one row. -/
theorem brow4 : StableHlo.after hostOps9 V (Proc.devRef .tc main_v128)
    = broadcastInDim Cert.ReferenceIdeal.S1x128 ![1] Cert.ReferenceIdeal.Facts₀.bcast_S128_S1x128_1 (Cert.Net.bOf4 (V (Proc.devRef .tc main_arg4))) := by
  read_results
  exact Cert.Tile.row_of_vec (N := 128) _ _ _

/-- Layer 4's weight. -/
theorem w4 : StableHlo.after hostOps8 V (Proc.devRef .tc main_v111) = Cert.Net.wOf4 (V (Proc.devRef .tc main_arg3)) := by
  read_results
  rfl

/-- The mean of the rows of each graph. -/
theorem pool : StableHlo.after hostOps10 V (Proc.devRef .tc main_v141) = Cert.Net.poolOf (V (Proc.devRef .tc main_v129)) (V (Proc.devRef .tc main_arg2)) := by
  read_results
  rfl

/-- The head's bias as one row. -/
theorem lrow : StableHlo.after hostOps10 V (Proc.devRef .tc main_v142)
    = broadcastInDim Cert.ReferenceIdeal.S1x10 ![1] Cert.ReferenceIdeal.Facts₀.bcast_S10_S1x10_1 (V (Proc.devRef .tc main_arg6)) := by
  read_results
  exact Cert.Tile.row_of_vec (N := 10) _ _ _

end Cert.KernelIdeal.Stretch

end
-- ==== Proof.Chain0.lean ====
/-
  What the first region finds (the fold of @main up to region 0's entry, `Gen.W3`).

  Forty-two host operations run before the first region: they build the edge lists with self loops (`src`, `dst`),
  the in-degree, `deg⁻¹ᐟ²` guarded at zero, the per-edge normaliser, and cut layer 0's weight out of the stacked
  weights. Each buffer of interest, read back through the three stretches to the launch memory, is the corresponding
  function of `Cert.Net` of the argument arrays; the argument buffers themselves are untouched.
  `Keeps W` collects what every later segment must find unchanged in a valuation `W`: `src`, `dst`, the normaliser,
  and the argument arrays that are read later. `X1 … X5` name the features after each layer.
-/
import proofs.«164210_j54150947668273_1_alg».proof.Defs
import proofs.«164210_j54150947668273_1_alg».proof.Proof.Gen.KernelIdeal.Frame
import proofs.«164210_j54150947668273_1_alg».proof.Proof.Net
import proofs.«164210_j54150947668273_1_alg».proof.Proof.ChainTac
import proofs.«164210_j54150947668273_1_alg».proof.Proof.Stretch
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ChainTac

variable (m : (ℓ : Loc nD τ sig) → Buf (Elt Ideal) ℓ) (ρ : Dev nD → PrngReg) (c : Dev nD)

/-- What stays in place from region 0's entry to the end: the edge lists, the normaliser and the arguments still to be read. -/
structure Keeps (W : Valuation τ sig (Elt Ideal)) : Prop where
  src : W (Proc.devRef .tc main_v3) = Cert.Net.srcOf (m ((c : Thread nD τ).loc main_arg1))
  dst : W (Proc.devRef .tc main_v6) = Cert.Net.dstOf (m ((c : Thread nD τ).loc main_arg1))
  norm : W (Proc.devRef .tc main_v29) = Cert.Net.normOf (m ((c : Thread nD τ).loc main_arg1))
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)

/-- The features after layer 0 … 4. -/
def X1 : FVec Ideal Cert.ReferenceIdeal.S100000x128 .f32 :=
  Cert.Net.layer (m ((c : Thread nD τ).loc main_arg0)) (Cert.Net.wOf0 (m ((c : Thread nD τ).loc main_arg3))) (Cert.Net.bOf0 (m ((c : Thread nD τ).loc main_arg4))) (m ((c : Thread nD τ).loc main_arg1))
def X2 : FVec Ideal Cert.ReferenceIdeal.S100000x128 .f32 :=
  Cert.Net.layer (X1 m c) (Cert.Net.wOf1 (m ((c : Thread nD τ).loc main_arg3))) (Cert.Net.bOf1 (m ((c : Thread nD τ).loc main_arg4))) (m ((c : Thread nD τ).loc main_arg1))
def X3 : FVec Ideal Cert.ReferenceIdeal.S100000x128 .f32 :=
  Cert.Net.layer (X2 m c) (Cert.Net.wOf2 (m ((c : Thread nD τ).loc main_arg3))) (Cert.Net.bOf2 (m ((c : Thread nD τ).loc main_arg4))) (m ((c : Thread nD τ).loc main_arg1))
def X4 : FVec Ideal Cert.ReferenceIdeal.S100000x128 .f32 :=
  Cert.Net.layer (X3 m c) (Cert.Net.wOf3 (m ((c : Thread nD τ).loc main_arg3))) (Cert.Net.bOf3 (m ((c : Thread nD τ).loc main_arg4))) (m ((c : Thread nD τ).loc main_arg1))
def X5 : FVec Ideal Cert.ReferenceIdeal.S100000x128 .f32 :=
  Cert.Net.layer (X4 m c) (Cert.Net.wOf4 (m ((c : Thread nD τ).loc main_arg3))) (Cert.Net.bOf4 (m ((c : Thread nD τ).loc main_arg4))) (m ((c : Thread nD τ).loc main_arg1))

/-- An argument buffer is as launched at region 0's entry: no host operation before it writes an argument. -/
theorem arg3 (b : Ref sig .tc)
    (h0 : StableHlo.after hostOps0 (W0 m ρ c) (Proc.devRef .tc b) = W0 m ρ c (Proc.devRef .tc b))
    (h1 : StableHlo.after hostOps0_1 (W1 m ρ c) (Proc.devRef .tc b) = W1 m ρ c (Proc.devRef .tc b))
    (h2 : StableHlo.after hostOps0_2 (W2 m ρ c) (Proc.devRef .tc b) = W2 m ρ c (Proc.devRef .tc b)) :
    W3 m ρ c (Proc.devRef .tc b) = W0 m ρ c (Proc.devRef .tc b) :=
  h2.trans (h1.trans h0)

theorem arg0_3 : W3 m ρ c (Proc.devRef .tc main_arg0) = m ((c : Thread nD τ).loc main_arg0) :=
  arg3 m ρ c main_arg0 (by carry_host hostOps0) (by carry_host hostOps0_1) (by carry_host hostOps0_2)
theorem arg2_3 : W3 m ρ c (Proc.devRef .tc main_arg2) = m ((c : Thread nD τ).loc main_arg2) :=
  arg3 m ρ c main_arg2 (by carry_host hostOps0) (by carry_host hostOps0_1) (by carry_host hostOps0_2)
theorem arg3_3 : W3 m ρ c (Proc.devRef .tc main_arg3) = m ((c : Thread nD τ).loc main_arg3) :=
  arg3 m ρ c main_arg3 (by carry_host hostOps0) (by carry_host hostOps0_1) (by carry_host hostOps0_2)
theorem arg4_3 : W3 m ρ c (Proc.devRef .tc main_arg4) = m ((c : Thread nD τ).loc main_arg4) :=
  arg3 m ρ c main_arg4 (by carry_host hostOps0) (by carry_host hostOps0_1) (by carry_host hostOps0_2)
theorem arg5_3 : W3 m ρ c (Proc.devRef .tc main_arg5) = m ((c : Thread nD τ).loc main_arg5) :=
  arg3 m ρ c main_arg5 (by carry_host hostOps0) (by carry_host hostOps0_1) (by carry_host hostOps0_2)
theorem arg6_3 : W3 m ρ c (Proc.devRef .tc main_arg6) = m ((c : Thread nD τ).loc main_arg6) :=
  arg3 m ρ c main_arg6 (by carry_host hostOps0) (by carry_host hostOps0_1) (by carry_host hostOps0_2)

/-- The edge lists after the first and the second stretch, and `deg⁻¹ᐟ²` after the second. -/
theorem src1 : W1 m ρ c (Proc.devRef .tc main_v3) = Cert.Net.srcOf (m ((c : Thread nD τ).loc main_arg1)) := Stretch.src0 (W0 m ρ c)
theorem dst1 : W1 m ρ c (Proc.devRef .tc main_v6) = Cert.Net.dstOf (m ((c : Thread nD τ).loc main_arg1)) := Stretch.dst0 (W0 m ρ c)
theorem src2 : W2 m ρ c (Proc.devRef .tc main_v3) = Cert.Net.srcOf (m ((c : Thread nD τ).loc main_arg1)) :=
  (show W2 m ρ c (Proc.devRef .tc main_v3) = W1 m ρ c (Proc.devRef .tc main_v3) by carry_host hostOps0_1).trans (src1 m ρ c)
theorem dst2 : W2 m ρ c (Proc.devRef .tc main_v6) = Cert.Net.dstOf (m ((c : Thread nD τ).loc main_arg1)) :=
  (show W2 m ρ c (Proc.devRef .tc main_v6) = W1 m ρ c (Proc.devRef .tc main_v6) by carry_host hostOps0_1).trans (dst1 m ρ c)
theorem dinv2 : W2 m ρ c (Proc.devRef .tc main_v14) = Cert.Net.dinvOf (m ((c : Thread nD τ).loc main_arg1)) :=
  Stretch.dinv1 (W1 m ρ c) (m ((c : Thread nD τ).loc main_arg1)) (Stretch.gt0 (W0 m ρ c)) (Stretch.rs0 (W0 m ρ c)) (Stretch.z0 (W0 m ρ c))

/-- Region 0's entry: the kept buffers. -/
theorem keeps3 : Keeps m c (W3 m ρ c) where
  src := (show W3 m ρ c (Proc.devRef .tc main_v3) = W2 m ρ c (Proc.devRef .tc main_v3) by carry_host hostOps0_2).trans (src2 m ρ c)
  dst := (show W3 m ρ c (Proc.devRef .tc main_v6) = W2 m ρ c (Proc.devRef .tc main_v6) by carry_host hostOps0_2).trans (dst2 m ρ c)
  norm := Stretch.norm2 (W2 m ρ c) (m ((c : Thread nD τ).loc main_arg1)) (src2 m ρ c) (dst2 m ρ c) (dinv2 m ρ c)
  a2 := arg2_3 m ρ c
  a3 := arg3_3 m ρ c
  a4 := arg4_3 m ρ c
  a5 := arg5_3 m ρ c
  a6 := arg6_3 m ρ c

/-- Region 0's entry: the features are the input features, the weight is layer 0's. -/
theorem x3 : W3 m ρ c (Proc.devRef .tc main_arg0) = m ((c : Thread nD τ).loc main_arg0) := arg0_3 m ρ c
theorem w3 : W3 m ρ c (Proc.devRef .tc main_v31) = Cert.Net.wOf0 (m ((c : Thread nD τ).loc main_arg3)) :=
  (Stretch.w0 (W2 m ρ c)).trans (congrArg Cert.Net.wOf0
    ((show W2 m ρ c (Proc.devRef .tc main_arg3) = W1 m ρ c (Proc.devRef .tc main_arg3) by carry_host hostOps0_1).trans
      (show W1 m ρ c (Proc.devRef .tc main_arg3) = W0 m ρ c (Proc.devRef .tc main_arg3) by carry_host hostOps0)))

end Cert.KernelIdeal.Chain

end
-- ==== Proof.Region0.lean ====
/-
  Region 0 (a dense projection, 20 row tiles of 5000 rows): the array it leaves is the whole matrix product.

  The region stages rows `5000 t … 5000 t + 4999` of its left operand and the whole 128 × 128 right operand at grid
  point `t`, multiplies them on the matrix unit into a zero accumulator (after a change of float format, the identity
  over the extended reals), and writes the tile back to the same rows of its output. Each written tile is therefore the
  same rows of the host's `dot_general` of the two whole arrays (`Cert.Tile.matmul_rows`), the twenty tiles cover the
  100000 rows, and so the output array ends holding that product, whatever the region found in its operands (`V`).
-/
import proofs.«164210_j54150947668273_1_alg».proof.Defs
import proofs.«164210_j54150947668273_1_alg».proof.Proof.Gen.KernelIdeal.Frame
import proofs.«164210_j54150947668273_1_alg».proof.Proof.Gen.ReferenceIdeal
import proofs.«164210_j54150947668273_1_alg».proof.Proof.Tile
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the two operand arrays as the region finds them, in the host's spelling. -/
def product (c : Dev nD) : Buf (Elt Ideal) ((c : Thread nD τ).loc main_v32) :=
  Host.dotGeneral (F := Ideal) (φ₁ := .f32) (φ₂ := .f32) Cert.ReferenceIdeal.dot_S100000x128_S128x128_S100000x128_1_0_0_1_n_n none
    (V c main_arg0) (V c main_v31)

/-- The printed index maps over the grid: the row tiles move with the grid point, the weight does not move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's arithmetic on a row tile `x0` (rows `5000 T + ·` of `X`) and the weight `x1`, at an element of the tile. -/
theorem payload_rows (X : FVec Ideal S100000x128 .f32) (W : FVec Ideal S128x128 .f32)
    (x0 : Vec Ideal S5000x128 .f32) (x1 : Vec Ideal S128x128 .f32) (T : Nat)
    (h0 : ∀ (y : S5000x128.Idx) (i : S100000x128.Idx), (i 0).val = T * 5000 + (y 0).val → (i 1).val = (y 1).val → x0 y = X i)
    (h1 : ∀ y, x1 y = W y)
    (j : S5000x128.Idx) (i : S100000x128.Idx) (hi0 : (i 0).val = T * 5000 + (j 0).val) (hi1 : (i 1).val = (j 1).val) :
    k0_pay1 x0 x1 j = Host.dotGeneral Cert.ReferenceIdeal.dot_S100000x128_S128x128_S100000x128_1_0_0_1_n_n none X W i := by
  unfold k0_pay1
  rw [shapeCast_self]
  exact Cert.Tile.matmul_rows (R := 100000) (M := 5000) (K := 128) (N := 128) X W x0 x1 (T * 5000) h0 h1 j i hi0 hi1

/-- WHAT POINT `t` WRITES BACK is block `t` of the product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (iblk0 V c 0 t) (iblk0 V c 1 t) j = product V c (((cfg0.win 2).blk t).view.emb j)
  unfold product
  refine payload_rows (V c main_arg0) (V c main_v31) (iblk0 V c 0 t) (iblk0 V c 1 t) t.val ?_ ?_ j (((cfg0.win 2).blk t).view.emb j) ?_ ?_
  · intro y i h0 h1
    show V c main_arg0 (((cfg0.win 0).blk t).view.emb y) = V c main_arg0 i
    refine congrArg (V c main_arg0) (funext fun a => Fin.ext ?_)
    match a with
    | ⟨0, _⟩ => show win0_0.index t (0 : Fin 2) * 5000 + 1 * (y 0).val = (i 0).val; omega
    | ⟨1, _⟩ => show win0_0.index t (1 : Fin 2) * 128 + 1 * (y 1).val = (i 1).val; omega
  · intro y
    show V c main_v31 (((cfg0.win 1).blk t).view.emb y) = V c main_v31 y
    refine congrArg (V c main_v31) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (0 : Fin 2) * 5000 + 1 * (j 0).val = t.val * 5000 + (j 0).val; omega
  · show win0_2.index t (1 : Fin 2) * 128 + 1 * (j 1).val = (j 1).val; omega

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row `r` is in the block of point `r / 5000`: the twenty blocks cover the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by rw [show cfg0.N = 20 from N_0]; omega⟩, flush0_2 _, ?_⟩
  rw [mem_blk]
  obtain ⟨e0, e1, e2, e3, e4, e5⟩ := idx_facts ⟨(i 0).val / 5000, by rw [show cfg0.N = 20 from N_0]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- THE OUTPUT ARRAY after the region: the product of the operand arrays as the region found them. -/
theorem final (c : Dev nD) : (dat0 V c).arrAt 2 cfg0.N = product V c :=
  (dat0 V c).arrAt_eq_of_cover 2 (product V c) (fun t _ => flushed_eq V c t) (cover)

end Cert.KernelIdeal.Region0

end
-- ==== Proof.Region1.lean ====
/-
  Region 1 (bias and clamp, 20 row tiles of 5000 rows): the array it leaves is `max (S + b, 0)`, row by row.

  At grid point `t` the region stages rows `5000 t … 5000 t + 4999` of the aggregated features `S` and the whole
  one-row bias `b` ([1, 128]), adds the bias to every row of the tile, clamps at zero from below, and writes the tile
  back to the same rows. Each written tile is the same rows of the host's spelling of that function of the whole arrays
  (`Cert.Tile.bias_relu_rows`), the twenty tiles cover the 100000 rows, and so the output array ends holding it,
  whatever the region found in its operands (`V`).
-/
import proofs.«164210_j54150947668273_1_alg».proof.Defs
import proofs.«164210_j54150947668273_1_alg».proof.Proof.Gen.KernelIdeal.Frame
import proofs.«164210_j54150947668273_1_alg».proof.Proof.Gen.ReferenceIdeal
import proofs.«164210_j54150947668273_1_alg».proof.Proof.Tile
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The bias added to every row and the clamp at zero, of whole arrays, in the host's spelling. -/
def clamped (S : FVec Ideal S100000x128 .f32) (B : FVec Ideal S1x128 .f32) : FVec Ideal S100000x128 .f32 :=
  maximumf (addf S (broadcastInDim Cert.ReferenceIdeal.S100000x128 ![0, 1] Cert.ReferenceIdeal.Facts₀.bcast_S1x128_S100000x128_0_1 B))
    (broadcastInDim Cert.ReferenceIdeal.S100000x128 ![] Cert.ReferenceIdeal.Facts₀.bcast_S_S100000x128
      (constant (F := Ideal) Cert.ReferenceIdeal.S_ .f32 0x00000000#32))

/-- That function of the two operand arrays as the region finds them. -/
def result (c : Dev nD) : Buf (Elt Ideal) ((c : Thread nD τ).loc main_v49) :=
  clamped (V c main_v45) (V c main_v48)

/-- The printed index maps over the grid: the row tiles move with the grid point, the bias does not move. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's arithmetic on a row tile `x0` (rows `5000 T + ·` of `S`) and the bias row `x1`, at an element of the tile. -/
theorem payload_rows (S : FVec Ideal S100000x128 .f32) (B : FVec Ideal S1x128 .f32)
    (x0 : Vec Ideal S5000x128 .f32) (x1 : Vec Ideal S1x128 .f32) (T : Nat)
    (h0 : ∀ (y : S5000x128.Idx) (i : S100000x128.Idx), (i 0).val = T * 5000 + (y 0).val → (i 1).val = (y 1).val → x0 y = S i)
    (h1 : ∀ y, x1 y = B y)
    (j : S5000x128.Idx) (i : S100000x128.Idx) (hi0 : (i 0).val = T * 5000 + (j 0).val) (hi1 : (i 1).val = (j 1).val) :
    k1_pay1 x0 x1 j = clamped S B i := by
  unfold k1_pay1 clamped
  rw [shapeCast_self, shapeCast_self]
  exact Cert.Tile.bias_relu_rows (R := 100000) (M := 5000) (N := 128) S B x0 x1 (T * 5000) h0 h1 _ _ _ j i hi0 hi1

/-- WHAT POINT `t` WRITES BACK is block `t` of the result. -/
theorem flushed_eq (c : Dev nD) (t : Fin cfg1.N) :
    (dat1 V c).flushed 2 t = ((cfg1.win 2).blk t).view.read (Elt Ideal) (result V c) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  show k1_pay1 (iblk1 V c 0 t) (iblk1 V c 1 t) j = result V c (((cfg1.win 2).blk t).view.emb j)
  unfold result
  refine payload_rows (V c main_v45) (V c main_v48) (iblk1 V c 0 t) (iblk1 V c 1 t) t.val ?_ ?_ j (((cfg1.win 2).blk t).view.emb j) ?_ ?_
  · intro y i h0 h1
    show V c main_v45 (((cfg1.win 0).blk t).view.emb y) = V c main_v45 i
    refine congrArg (V c main_v45) (funext fun a => Fin.ext ?_)
    match a with
    | ⟨0, _⟩ => show win1_0.index t (0 : Fin 2) * 5000 + 1 * (y 0).val = (i 0).val; omega
    | ⟨1, _⟩ => show win1_0.index t (1 : Fin 2) * 128 + 1 * (y 1).val = (i 1).val; omega
  · intro y
    show V c main_v48 (((cfg1.win 1).blk t).view.emb y) = V c main_v48 y
    refine congrArg (V c main_v48) (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  · show win1_2.index t (0 : Fin 2) * 5000 + 1 * (j 0).val = t.val * 5000 + (j 0).val; omega
  · show win1_2.index t (1 : Fin 2) * 128 + 1 * (j 1).val = (j 1).val; omega

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Row `r` is in the block of point `r / 5000`: the twenty blocks cover the array. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  refine ⟨⟨(i 0).val / 5000, by rw [show cfg1.N = 20 from N_1]; omega⟩, flush1_2 _, ?_⟩
  rw [mem_blk]
  obtain ⟨e0, e1, e2, e3, e4, e5⟩ := idx_facts ⟨(i 0).val / 5000, by rw [show cfg1.N = 20 from N_1]; omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e5]; omega

/-- THE OUTPUT ARRAY after the region: the bias added and the clamp applied to the operand arrays as the region found them. -/
theorem final (c : Dev nD) : (dat1 V c).arrAt 2 cfg1.N = result V c :=
  (dat1 V c).arrAt_eq_of_cover 2 (result V c) (fun t _ => flushed_eq V c t) (cover)

end Cert.KernelIdeal.Region1

end
-- ==== Proof.ChainL0.lean ====
/-
  Layer 0 of the network, from region 0's entry (`Gen.W3`) to region 2's entry (`Gen.W7`).

  Region 0 leaves the product of the features and the layer's weight; the host stretch after it aggregates the
  projected rows over the edges and views the bias as one row; region 1 adds the bias row and clamps at zero, which is
  the layer of `Cert.Net`; the next stretch cuts the next layer's weight. The kept buffers are carried along.
-/
import proofs.«164210_j54150947668273_1_alg».proof.Defs
import proofs.«164210_j54150947668273_1_alg».proof.Proof.Gen.KernelIdeal.Frame
import proofs.«164210_j54150947668273_1_alg».proof.Proof.Net
import proofs.«164210_j54150947668273_1_alg».proof.Proof.ChainTac
import proofs.«164210_j54150947668273_1_alg».proof.Proof.Chain0
import proofs.«164210_j54150947668273_1_alg».proof.Proof.Region0
import proofs.«164210_j54150947668273_1_alg».proof.Proof.Region1
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ChainTac

variable (m : (ℓ : Loc nD τ sig) → Buf (Elt Ideal) ℓ) (ρ : Dev nD → PrngReg) (c : Dev nD)

/-- The kept buffers at region 0's exit: none is one of its arrays. -/
theorem keeps4 : Keeps m c (W4 m ρ c) :=
  have k := keeps3 m ρ c
  { src := (W4_of_ne m ρ c main_v3 (by decide)).trans k.src
    dst := (W4_of_ne m ρ c main_v6 (by decide)).trans k.dst
    norm := (W4_of_ne m ρ c main_v29 (by decide)).trans k.norm
    a2 := (W4_of_ne m ρ c main_arg2 (by decide)).trans k.a2
    a3 := (W4_of_ne m ρ c main_arg3 (by decide)).trans k.a3
    a4 := (W4_of_ne m ρ c main_arg4 (by decide)).trans k.a4
    a5 := (W4_of_ne m ρ c main_arg5 (by decide)).trans k.a5
    a6 := (W4_of_ne m ρ c main_arg6 (by decide)).trans k.a6 }

/-- Region 0's output: the projected features. -/
theorem h4 : W4 m ρ c (Proc.devRef .tc main_v32)
    = Host.dotGeneral (F := Ideal) (φ₁ := .f32) (φ₂ := .f32) Cert.ReferenceIdeal.dot_S100000x128_S128x128_S100000x128_1_0_0_1_n_n none (m ((c : Thread nD τ).loc main_arg0)) (Cert.Net.wOf0 (m ((c : Thread nD τ).loc main_arg3))) :=
  ((W4_arr m ρ c 2).trans (Region0.final (V3 m ρ) c)).trans (by
    show Host.dotGeneral (F := Ideal) (φ₁ := .f32) (φ₂ := .f32) Cert.ReferenceIdeal.dot_S100000x128_S128x128_S100000x128_1_0_0_1_n_n none
      (W3 m ρ c (Proc.devRef .tc main_arg0)) (W3 m ρ c (Proc.devRef .tc main_v31)) = _
    rw [x3 m ρ c, w3 m ρ c])

/-- The kept buffers after `hostOps1`: none of its operations writes one. -/
theorem keeps5 : Keeps m c (W5 m ρ c) :=
  have k := keeps4 m ρ c
  { src := (show W5 m ρ c (Proc.devRef .tc main_v3) = W4 m ρ c (Proc.devRef .tc main_v3) by carry_host hostOps1).trans k.src
    dst := (show W5 m ρ c (Proc.devRef .tc main_v6) = W4 m ρ c (Proc.devRef .tc main_v6) by carry_host hostOps1).trans k.dst
    norm := (show W5 m ρ c (Proc.devRef .tc main_v29) = W4 m ρ c (Proc.devRef .tc main_v29) by carry_host hostOps1).trans k.norm
    a2 := (show W5 m ρ c (Proc.devRef .tc main_arg2) = W4 m ρ c (Proc.devRef .tc main_arg2) by carry_host hostOps1).trans k.a2
    a3 := (show W5 m ρ c (Proc.devRef .tc main_arg3) = W4 m ρ c (Proc.devRef .tc main_arg3) by carry_host hostOps1).trans k.a3
    a4 := (show W5 m ρ c (Proc.devRef .tc main_arg4) = W4 m ρ c (Proc.devRef .tc main_arg4) by carry_host hostOps1).trans k.a4
    a5 := (show W5 m ρ c (Proc.devRef .tc main_arg5) = W4 m ρ c (Proc.devRef .tc main_arg5) by carry_host hostOps1).trans k.a5
    a6 := (show W5 m ρ c (Proc.devRef .tc main_arg6) = W4 m ρ c (Proc.devRef .tc main_arg6) by carry_host hostOps1).trans k.a6 }

/-- The aggregated rows and the bias row at region 1's entry. -/
theorem s5 : W5 m ρ c (Proc.devRef .tc main_v45)
    = Cert.Net.aggOf (Host.dotGeneral (F := Ideal) (φ₁ := .f32) (φ₂ := .f32) Cert.ReferenceIdeal.dot_S100000x128_S128x128_S100000x128_1_0_0_1_n_n none (m ((c : Thread nD τ).loc main_arg0)) (Cert.Net.wOf0 (m ((c : Thread nD τ).loc main_arg3)))) (m ((c : Thread nD τ).loc main_arg1)) :=
  have k := keeps4 m ρ c
  (Stretch.agg0 (W4 m ρ c) (m ((c : Thread nD τ).loc main_arg1)) k.src k.dst k.norm).trans (by rw [h4 m ρ c])
theorem b5 : W5 m ρ c (Proc.devRef .tc main_v48)
    = broadcastInDim Cert.ReferenceIdeal.S1x128 ![1] Cert.ReferenceIdeal.Facts₀.bcast_S128_S1x128_1 (Cert.Net.bOf0 (m ((c : Thread nD τ).loc main_arg4))) :=
  (Stretch.brow0 (W4 m ρ c)).trans (by rw [(keeps4 m ρ c).a4])

/-- The kept buffers at region 1's exit: none is one of its arrays. -/
theorem keeps6 : Keeps m c (W6 m ρ c) :=
  have k := keeps5 m ρ c
  { src := (W6_of_ne m ρ c main_v3 (by decide)).trans k.src
    dst := (W6_of_ne m ρ c main_v6 (by decide)).trans k.dst
    norm := (W6_of_ne m ρ c main_v29 (by decide)).trans k.norm
    a2 := (W6_of_ne m ρ c main_arg2 (by decide)).trans k.a2
    a3 := (W6_of_ne m ρ c main_arg3 (by decide)).trans k.a3
    a4 := (W6_of_ne m ρ c main_arg4 (by decide)).trans k.a4
    a5 := (W6_of_ne m ρ c main_arg5 (by decide)).trans k.a5
    a6 := (W6_of_ne m ρ c main_arg6 (by decide)).trans k.a6 }

/-- Region 1's output: the features after layer 0. -/
theorem o6 : W6 m ρ c (Proc.devRef .tc main_v49) = X1 m c :=
  ((W6_arr m ρ c 2).trans (Region1.final (V5 m ρ) c)).trans (by
    show Region1.clamped (W5 m ρ c (Proc.devRef .tc main_v45)) (W5 m ρ c (Proc.devRef .tc main_v48)) = _
    rw [s5 m ρ c, b5 m ρ c]
    exact (Cert.Net.layer_eq _ _ _ _).symm)

/-- The kept buffers after `hostOps2`: none of its operations writes one. -/
theorem keeps7 : Keeps m c (W7 m ρ c) :=
  have k := keeps6 m ρ c
  { src := (show W7 m ρ c (Proc.devRef .tc main_v3) = W6 m ρ c (Proc.devRef .tc main_v3) by carry_host hostOps2).trans k.src
    dst := (show W7 m ρ c (Proc.devRef .tc main_v6) = W6 m ρ c (Proc.devRef .tc main_v6) by carry_host hostOps2).trans k.dst
    norm := (show W7 m ρ c (Proc.devRef .tc main_v29) = W6 m ρ c (Proc.devRef .tc main_v29) by carry_host hostOps2).trans k.norm
    a2 := (show W7 m ρ c (Proc.devRef .tc main_arg2) = W6 m ρ c (Proc.devRef .tc main_arg2) by carry_host hostOps2).trans k.a2
    a3 := (show W7 m ρ c (Proc.devRef .tc main_arg3) = W6 m ρ c (Proc.devRef .tc main_arg3) by carry_host hostOps2).trans k.a3
    a4 := (show W7 m ρ c (Proc.devRef .tc main_arg4) = W6 m ρ c (Proc.devRef .tc main_arg4) by carry_host hostOps2).trans k.a4
    a5 := (show W7 m ρ c (Proc.devRef .tc main_arg5) = W6 m ρ c (Proc.devRef .tc main_arg5) by carry_host hostOps2).trans k.a5
    a6 := (show W7 m ρ c (Proc.devRef .tc main_arg6) = W6 m ρ c (Proc.devRef .tc main_arg6) by carry_host hostOps2).trans k.a6 }

/-- Region 2's entry: the features after layer 0, and layer 1's weight. -/
theorem x7 : W7 m ρ c (Proc.devRef .tc main_v49) = X1 m c :=
  (show W7 m ρ c (Proc.devRef .tc main_v49) = W6 m ρ c (Proc.devRef .tc main_v49) by carry_host hostOps2).trans (o6 m ρ c)
theorem w7 : W7 m ρ c (Proc.devRef .tc main_v51) = Cert.Net.wOf1 (m ((c : Thread nD τ).loc main_arg3)) :=
  (Stretch.w1 (W6 m ρ c)).trans (by rw [(keeps6 m ρ c).a3])

end Cert.KernelIdeal.Chain

end
-- ==== Proof.Region2.lean ====
/-
  Region 2 (a dense projection, 20 row tiles of 5000 rows): the array it leaves is the whole matrix product.

  The region stages rows `5000 t … 5000 t + 4999` of its left operand and the whole 128 × 128 right operand at grid
  point `t`, multiplies them on the matrix unit into a zero accumulator (after a change of float format, the identity
  over the extended reals), and writes the tile back to the same rows of its output. Each written tile is therefore the
  same rows of the host's `dot_general` of the two whole arrays (`Cert.Tile.matmul_rows`), the twenty tiles cover the
  100000 rows, and so the output array ends holding that product, whatever the region found in its operands (`V`).
-/
import proofs.«164210_j54150947668273_1_alg».proof.Defs
import proofs.«164210_j54150947668273_1_alg».proof.Proof.Gen.KernelIdeal.Frame
import proofs.«164210_j54150947668273_1_alg».proof.Proof.Gen.ReferenceIdeal
import proofs.«164210_j54150947668273_1_alg».proof.Proof.Tile
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the two operand arrays as the region finds them, in the host's spelling. -/
def product (c : Dev nD) : Buf (Elt Ideal) ((c : Thread nD τ).loc main_v52) :=
  Host.dotGeneral (F := Ideal) (φ₁ := .f32) (φ₂ := .f32) Cert.ReferenceIdeal.dot_S100000x128_S128x128_S100000x128_1_0_0_1_n_n none
    (V c main_v49) (V c main_v51)

/-- The printed index maps over the grid: the row tiles move with the grid point, the weight does not move. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's arithmetic on a row tile `x0` (rows `5000 T + ·` of `X`) and the weight `x1`, at an element of the tile. -/
theorem payload_rows (X : FVec Ideal S100000x128 .f32) (W : FVec Ideal S128x128 .f32)
    (x0 : Vec Ideal S5000x128 .f32) (x1 : Vec Ideal S128x128 .f32) (T : Nat)
    (h0 : ∀ (y : S5000x128.Idx) (i : S100000x128.Idx), (i 0).val = T * 5000 + (y 0).val → (i 1).val = (y 1).val → x0 y = X i)
    (h1 : ∀ y, x1 y = W y)
    (j : S5000x128.Idx) (i : S100000x128.Idx) (hi0 : (i 0).val = T * 5000 + (j 0).val) (hi1 : (i 1).val = (j 1).val) :
    k2_pay1 x0 x1 j = Host.dotGeneral Cert.ReferenceIdeal.dot_S100000x128_S128x128_S100000x128_1_0_0_1_n_n none X W i := by
  unfold k2_pay1
  rw [shapeCast_self, shapeCast_self]
  exact Cert.Tile.matmul_rows (R := 100000) (M := 5000) (K := 128) (N := 128) X W x0 x1 (T * 5000) h0 h1 j i hi0 hi1

/-- WHAT POINT `t` WRITES BACK is block `t` of the product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  show k2_pay1 (iblk2 V c 0 t) (iblk2 V c 1 t) j = product V c (((cfg2.win 2).blk t).view.emb j)
  unfold product
  refine payload_rows (V c main_v49) (V c main_v51) (iblk2 V c 0 t) (iblk2 V c 1 t) t.val ?_ ?_ j (((cfg2.win 2).blk t).view.emb j) ?_ ?_
  · intro y i h0 h1
    show V c main_v49 (((cfg2.win 0).blk t).view.emb y) = V c main_v49 i
    refine congrArg (V c main_v49) (funext fun a => Fin.ext ?_)
    match a with
    | ⟨0, _⟩ => show win2_0.index t (0 : Fin 2) * 5000 + 1 * (y 0).val = (i 0).val; omega
    | ⟨1, _⟩ => show win2_0.index t (1 : Fin 2) * 128 + 1 * (y 1).val = (i 1).val; omega
  · intro y
    show V c main_v51 (((cfg2.win 1).blk t).view.emb y) = V c main_v51 y
    refine congrArg (V c main_v51) (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  · show win2_2.index t (0 : Fin 2) * 5000 + 1 * (j 0).val = t.val * 5000 + (j 0).val; omega
  · show win2_2.index t (1 : Fin 2) * 128 + 1 * (j 1).val = (j 1).val; omega

/-- An index of the output array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v52).slice (win2_2.rect t)).set ↔ _
  rw [View.set_slice_whole, Rect.mem_set_unit]
  exact Iff.rfl

/-- Row `r` is in the block of point `r / 5000`: the twenty blocks cover the array. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  refine ⟨⟨(i 0).val / 5000, by rw [show cfg2.N = 20 from N_2]; omega⟩, flush2_2 _, ?_⟩
  rw [mem_blk]
  obtain ⟨e0, e1, e2, e3, e4, e5⟩ := idx_facts ⟨(i 0).val / 5000, by rw [show cfg2.N = 20 from N_2]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e5]; omega

/-- THE OUTPUT ARRAY after the region: the product of the operand arrays as the region found them. -/
theorem final (c : Dev nD) : (dat2 V c).arrAt 2 cfg2.N = product V c :=
  (dat2 V c).arrAt_eq_of_cover 2 (product V c) (fun t _ => flushed_eq V c t) (cover)

end Cert.KernelIdeal.Region2

end
-- ==== Proof.Region3.lean ====
/-
  Region 3 (bias and clamp, 20 row tiles of 5000 rows): the array it leaves is `max (S + b, 0)`, row by row.

  At grid point `t` the region stages rows `5000 t … 5000 t + 4999` of the aggregated features `S` and the whole
  one-row bias `b` ([1, 128]), adds the bias to every row of the tile, clamps at zero from below, and writes the tile
  back to the same rows. Each written tile is the same rows of the host's spelling of that function of the whole arrays
  (`Cert.Tile.bias_relu_rows`), the twenty tiles cover the 100000 rows, and so the output array ends holding it,
  whatever the region found in its operands (`V`).
-/
import proofs.«164210_j54150947668273_1_alg».proof.Defs
import proofs.«164210_j54150947668273_1_alg».proof.Proof.Gen.KernelIdeal.Frame
import proofs.«164210_j54150947668273_1_alg».proof.Proof.Gen.ReferenceIdeal
import proofs.«164210_j54150947668273_1_alg».proof.Proof.Tile
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The bias added to every row and the clamp at zero, of whole arrays, in the host's spelling. -/
def clamped (S : FVec Ideal S100000x128 .f32) (B : FVec Ideal S1x128 .f32) : FVec Ideal S100000x128 .f32 :=
  maximumf (addf S (broadcastInDim Cert.ReferenceIdeal.S100000x128 ![0, 1] Cert.ReferenceIdeal.Facts₀.bcast_S1x128_S100000x128_0_1 B))
    (broadcastInDim Cert.ReferenceIdeal.S100000x128 ![] Cert.ReferenceIdeal.Facts₀.bcast_S_S100000x128
      (constant (F := Ideal) Cert.ReferenceIdeal.S_ .f32 0x00000000#32))

/-- That function of the two operand arrays as the region finds them. -/
def result (c : Dev nD) : Buf (Elt Ideal) ((c : Thread nD τ).loc main_v69) :=
  clamped (V c main_v65) (V c main_v68)

/-- The printed index maps over the grid: the row tiles move with the grid point, the bias does not move. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's arithmetic on a row tile `x0` (rows `5000 T + ·` of `S`) and the bias row `x1`, at an element of the tile. -/
theorem payload_rows (S : FVec Ideal S100000x128 .f32) (B : FVec Ideal S1x128 .f32)
    (x0 : Vec Ideal S5000x128 .f32) (x1 : Vec Ideal S1x128 .f32) (T : Nat)
    (h0 : ∀ (y : S5000x128.Idx) (i : S100000x128.Idx), (i 0).val = T * 5000 + (y 0).val → (i 1).val = (y 1).val → x0 y = S i)
    (h1 : ∀ y, x1 y = B y)
    (j : S5000x128.Idx) (i : S100000x128.Idx) (hi0 : (i 0).val = T * 5000 + (j 0).val) (hi1 : (i 1).val = (j 1).val) :
    k3_pay1 x0 x1 j = clamped S B i := by
  unfold k3_pay1 clamped
  rw [shapeCast_self, shapeCast_self]
  exact Cert.Tile.bias_relu_rows (R := 100000) (M := 5000) (N := 128) S B x0 x1 (T * 5000) h0 h1 _ _ _ j i hi0 hi1

/-- WHAT POINT `t` WRITES BACK is block `t` of the result. -/
theorem flushed_eq (c : Dev nD) (t : Fin cfg3.N) :
    (dat3 V c).flushed 2 t = ((cfg3.win 2).blk t).view.read (Elt Ideal) (result V c) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext j
  show k3_pay1 (iblk3 V c 0 t) (iblk3 V c 1 t) j = result V c (((cfg3.win 2).blk t).view.emb j)
  unfold result
  refine payload_rows (V c main_v65) (V c main_v68) (iblk3 V c 0 t) (iblk3 V c 1 t) t.val ?_ ?_ j (((cfg3.win 2).blk t).view.emb j) ?_ ?_
  · intro y i h0 h1
    show V c main_v65 (((cfg3.win 0).blk t).view.emb y) = V c main_v65 i
    refine congrArg (V c main_v65) (funext fun a => Fin.ext ?_)
    match a with
    | ⟨0, _⟩ => show win3_0.index t (0 : Fin 2) * 5000 + 1 * (y 0).val = (i 0).val; omega
    | ⟨1, _⟩ => show win3_0.index t (1 : Fin 2) * 128 + 1 * (y 1).val = (i 1).val; omega
  · intro y
    show V c main_v68 (((cfg3.win 1).blk t).view.emb y) = V c main_v68 y
    refine congrArg (V c main_v68) (funext fun a => Fin.ext ?_)
    match a with
    | ⟨0, _⟩ => show win3_1.index t (0 : Fin 2) * 1 + 1 * (y 0).val = (y 0).val; omega
    | ⟨1, _⟩ => show win3_1.index t (1 : Fin 2) * 128 + 1 * (y 1).val = (y 1).val; omega
  · show win3_2.index t (0 : Fin 2) * 5000 + 1 * (j 0).val = t.val * 5000 + (j 0).val; omega
  · show win3_2.index t (1 : Fin 2) * 128 + 1 * (j 1).val = (j 1).val; omega

/-- An index of the output array is in point `t`'s block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v69).slice (win3_2.rect t)).set ↔ _
  rw [View.set_slice_whole, Rect.mem_set_unit]
  exact Iff.rfl

/-- Row `r` is in the block of point `r / 5000`: the twenty blocks cover the array. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  refine ⟨⟨(i 0).val / 5000, by rw [show cfg3.N = 20 from N_3]; omega⟩, flush3_2 _, ?_⟩
  rw [mem_blk]
  obtain ⟨e0, e1, e2, e3, e4, e5⟩ := idx_facts ⟨(i 0).val / 5000, by rw [show cfg3.N = 20 from N_3]; omega⟩
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 128 ≤ (i 1).val ∧ (i 1).val < win3_2.index _ (1 : Fin 2) * 128 + 128
    rw [e5]; omega

/-- THE OUTPUT ARRAY after the region: the bias added and the clamp applied to the operand arrays as the region found them. -/
theorem final (c : Dev nD) : (dat3 V c).arrAt 2 cfg3.N = result V c :=
  (dat3 V c).arrAt_eq_of_cover 2 (result V c) (fun t _ => flushed_eq V c t) (cover)

end Cert.KernelIdeal.Region3

end
-- ==== Proof.ChainL1.lean ====
/-
  Layer 1 of the network, from region 2's entry (`Gen.W7`) to region 4's entry (`Gen.W11`).

  Region 2 leaves the product of the features and the layer's weight; the host stretch after it aggregates the
  projected rows over the edges and views the bias as one row; region 3 adds the bias row and clamps at zero, which is
  the layer of `Cert.Net`; the next stretch cuts the next layer's weight. The kept buffers are carried along.
-/
import proofs.«164210_j54150947668273_1_alg».proof.Defs
import proofs.«164210_j54150947668273_1_alg».proof.Proof.Gen.KernelIdeal.Frame
import proofs.«164210_j54150947668273_1_alg».proof.Proof.Net
import proofs.«164210_j54150947668273_1_alg».proof.Proof.ChainTac
import proofs.«164210_j54150947668273_1_alg».proof.Proof.ChainL0
import proofs.«164210_j54150947668273_1_alg».proof.Proof.Region2
import proofs.«164210_j54150947668273_1_alg».proof.Proof.Region3
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ChainTac

variable (m : (ℓ : Loc nD τ sig) → Buf (Elt Ideal) ℓ) (ρ : Dev nD → PrngReg) (c : Dev nD)

/-- The kept buffers at region 2's exit: none is one of its arrays. -/
theorem keeps8 : Keeps m c (W8 m ρ c) :=
  have k := keeps7 m ρ c
  { src := (W8_of_ne m ρ c main_v3 (by decide)).trans k.src
    dst := (W8_of_ne m ρ c main_v6 (by decide)).trans k.dst
    norm := (W8_of_ne m ρ c main_v29 (by decide)).trans k.norm
    a2 := (W8_of_ne m ρ c main_arg2 (by decide)).trans k.a2
    a3 := (W8_of_ne m ρ c main_arg3 (by decide)).trans k.a3
    a4 := (W8_of_ne m ρ c main_arg4 (by decide)).trans k.a4
    a5 := (W8_of_ne m ρ c main_arg5 (by decide)).trans k.a5
    a6 := (W8_of_ne m ρ c main_arg6 (by decide)).trans k.a6 }

/-- Region 2's output: the projected features. -/
theorem h8 : W8 m ρ c (Proc.devRef .tc main_v52)
    = Host.dotGeneral (F := Ideal) (φ₁ := .f32) (φ₂ := .f32) Cert.ReferenceIdeal.dot_S100000x128_S128x128_S100000x128_1_0_0_1_n_n none (X1 m c) (Cert.Net.wOf1 (m ((c : Thread nD τ).loc main_arg3))) :=
  ((W8_arr m ρ c 2).trans (Region2.final (V7 m ρ) c)).trans (by
    show Host.dotGeneral (F := Ideal) (φ₁ := .f32) (φ₂ := .f32) Cert.ReferenceIdeal.dot_S100000x128_S128x128_S100000x128_1_0_0_1_n_n none
      (W7 m ρ c (Proc.devRef .tc main_v49)) (W7 m ρ c (Proc.devRef .tc main_v51)) = _
    rw [x7 m ρ c, w7 m ρ c])

/-- The kept buffers after `hostOps3`: none of its operations writes one. -/
theorem keeps9 : Keeps m c (W9 m ρ c) :=
  have k := keeps8 m ρ c
  { src := (show W9 m ρ c (Proc.devRef .tc main_v3) = W8 m ρ c (Proc.devRef .tc main_v3) by carry_host hostOps3).trans k.src
    dst := (show W9 m ρ c (Proc.devRef .tc main_v6) = W8 m ρ c (Proc.devRef .tc main_v6) by carry_host hostOps3).trans k.dst
    norm := (show W9 m ρ c (Proc.devRef .tc main_v29) = W8 m ρ c (Proc.devRef .tc main_v29) by carry_host hostOps3).trans k.norm
    a2 := (show W9 m ρ c (Proc.devRef .tc main_arg2) = W8 m ρ c (Proc.devRef .tc main_arg2) by carry_host hostOps3).trans k.a2
    a3 := (show W9 m ρ c (Proc.devRef .tc main_arg3) = W8 m ρ c (Proc.devRef .tc main_arg3) by carry_host hostOps3).trans k.a3
    a4 := (show W9 m ρ c (Proc.devRef .tc main_arg4) = W8 m ρ c (Proc.devRef .tc main_arg4) by carry_host hostOps3).trans k.a4
    a5 := (show W9 m ρ c (Proc.devRef .tc main_arg5) = W8 m ρ c (Proc.devRef .tc main_arg5) by carry_host hostOps3).trans k.a5
    a6 := (show W9 m ρ c (Proc.devRef .tc main_arg6) = W8 m ρ c (Proc.devRef .tc main_arg6) by carry_host hostOps3).trans k.a6 }

/-- The aggregated rows and the bias row at region 3's entry. -/
theorem s9 : W9 m ρ c (Proc.devRef .tc main_v65)
    = Cert.Net.aggOf (Host.dotGeneral (F := Ideal) (φ₁ := .f32) (φ₂ := .f32) Cert.ReferenceIdeal.dot_S100000x128_S128x128_S100000x128_1_0_0_1_n_n none (X1 m c) (Cert.Net.wOf1 (m ((c : Thread nD τ).loc main_arg3)))) (m ((c : Thread nD τ).loc main_arg1)) :=
  have k := keeps8 m ρ c
  (Stretch.agg1 (W8 m ρ c) (m ((c : Thread nD τ).loc main_arg1)) k.src k.dst k.norm).trans (by rw [h8 m ρ c])
theorem b9 : W9 m ρ c (Proc.devRef .tc main_v68)
    = broadcastInDim Cert.ReferenceIdeal.S1x128 ![1] Cert.ReferenceIdeal.Facts₀.bcast_S128_S1x128_1 (Cert.Net.bOf1 (m ((c : Thread nD τ).loc main_arg4))) :=
  (Stretch.brow1 (W8 m ρ c)).trans (by rw [(keeps8 m ρ c).a4])

/-- The kept buffers at region 3's exit: none is one of its arrays. -/
theorem keeps10 : Keeps m c (W10 m ρ c) :=
  have k := keeps9 m ρ c
  { src := (W10_of_ne m ρ c main_v3 (by decide)).trans k.src
    dst := (W10_of_ne m ρ c main_v6 (by decide)).trans k.dst
    norm := (W10_of_ne m ρ c main_v29 (by decide)).trans k.norm
    a2 := (W10_of_ne m ρ c main_arg2 (by decide)).trans k.a2
    a3 := (W10_of_ne m ρ c main_arg3 (by decide)).trans k.a3
    a4 := (W10_of_ne m ρ c main_arg4 (by decide)).trans k.a4
    a5 := (W10_of_ne m ρ c main_arg5 (by decide)).trans k.a5
    a6 := (W10_of_ne m ρ c main_arg6 (by decide)).trans k.a6 }

/-- Region 3's output: the features after layer 1. -/
theorem o10 : W10 m ρ c (Proc.devRef .tc main_v69) = X2 m c :=
  ((W10_arr m ρ c 2).trans (Region3.final (V9 m ρ) c)).trans (by
    show Region3.clamped (W9 m ρ c (Proc.devRef .tc main_v65)) (W9 m ρ c (Proc.devRef .tc main_v68)) = _
    rw [s9 m ρ c, b9 m ρ c]
    exact (Cert.Net.layer_eq _ _ _ _).symm)

/-- The kept buffers after `hostOps4`: none of its operations writes one. -/
theorem keeps11 : Keeps m c (W11 m ρ c) :=
  have k := keeps10 m ρ c
  { src := (show W11 m ρ c (Proc.devRef .tc main_v3) = W10 m ρ c (Proc.devRef .tc main_v3) by carry_host hostOps4).trans k.src
    dst := (show W11 m ρ c (Proc.devRef .tc main_v6) = W10 m ρ c (Proc.devRef .tc main_v6) by carry_host hostOps4).trans k.dst
    norm := (show W11 m ρ c (Proc.devRef .tc main_v29) = W10 m ρ c (Proc.devRef .tc main_v29) by carry_host hostOps4).trans k.norm
    a2 := (show W11 m ρ c (Proc.devRef .tc main_arg2) = W10 m ρ c (Proc.devRef .tc main_arg2) by carry_host hostOps4).trans k.a2
    a3 := (show W11 m ρ c (Proc.devRef .tc main_arg3) = W10 m ρ c (Proc.devRef .tc main_arg3) by carry_host hostOps4).trans k.a3
    a4 := (show W11 m ρ c (Proc.devRef .tc main_arg4) = W10 m ρ c (Proc.devRef .tc main_arg4) by carry_host hostOps4).trans k.a4
    a5 := (show W11 m ρ c (Proc.devRef .tc main_arg5) = W10 m ρ c (Proc.devRef .tc main_arg5) by carry_host hostOps4).trans k.a5
    a6 := (show W11 m ρ c (Proc.devRef .tc main_arg6) = W10 m ρ c (Proc.devRef .tc main_arg6) by carry_host hostOps4).trans k.a6 }

/-- Region 4's entry: the features after layer 1, and layer 2's weight. -/
theorem x11 : W11 m ρ c (Proc.devRef .tc main_v69) = X2 m c :=
  (show W11 m ρ c (Proc.devRef .tc main_v69) = W10 m ρ c (Proc.devRef .tc main_v69) by carry_host hostOps4).trans (o10 m ρ c)
theorem w11 : W11 m ρ c (Proc.devRef .tc main_v71) = Cert.Net.wOf2 (m ((c : Thread nD τ).loc main_arg3)) :=
  (Stretch.w2 (W10 m ρ c)).trans (by rw [(keeps10 m ρ c).a3])

end Cert.KernelIdeal.Chain

end
-- ==== Proof.Region4.lean ====
/-
  Region 4 (a dense projection, 20 row tiles of 5000 rows): the array it leaves is the whole matrix product.

  The region stages rows `5000 t … 5000 t + 4999` of its left operand and the whole 128 × 128 right operand at grid
  point `t`, multiplies them on the matrix unit into a zero accumulator (after a change of float format, the identity
  over the extended reals), and writes the tile back to the same rows of its output. Each written tile is therefore the
  same rows of the host's `dot_general` of the two whole arrays (`Cert.Tile.matmul_rows`), the twenty tiles cover the
  100000 rows, and so the output array ends holding that product, whatever the region found in its operands (`V`).
-/
import proofs.«164210_j54150947668273_1_alg».proof.Defs
import proofs.«164210_j54150947668273_1_alg».proof.Proof.Gen.KernelIdeal.Frame
import proofs.«164210_j54150947668273_1_alg».proof.Proof.Gen.ReferenceIdeal
import proofs.«164210_j54150947668273_1_alg».proof.Proof.Tile
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the two operand arrays as the region finds them, in the host's spelling. -/
def product (c : Dev nD) : Buf (Elt Ideal) ((c : Thread nD τ).loc main_v72) :=
  Host.dotGeneral (F := Ideal) (φ₁ := .f32) (φ₂ := .f32) Cert.ReferenceIdeal.dot_S100000x128_S128x128_S100000x128_1_0_0_1_n_n none
    (V c main_v69) (V c main_v71)

/-- The printed index maps over the grid: the row tiles move with the grid point, the weight does not move. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's arithmetic on a row tile `x0` (rows `5000 T + ·` of `X`) and the weight `x1`, at an element of the tile. -/
theorem payload_rows (X : FVec Ideal S100000x128 .f32) (W : FVec Ideal S128x128 .f32)
    (x0 : Vec Ideal S5000x128 .f32) (x1 : Vec Ideal S128x128 .f32) (T : Nat)
    (h0 : ∀ (y : S5000x128.Idx) (i : S100000x128.Idx), (i 0).val = T * 5000 + (y 0).val → (i 1).val = (y 1).val → x0 y = X i)
    (h1 : ∀ y, x1 y = W y)
    (j : S5000x128.Idx) (i : S100000x128.Idx) (hi0 : (i 0).val = T * 5000 + (j 0).val) (hi1 : (i 1).val = (j 1).val) :
    k4_pay1 x0 x1 j = Host.dotGeneral Cert.ReferenceIdeal.dot_S100000x128_S128x128_S100000x128_1_0_0_1_n_n none X W i := by
  unfold k4_pay1
  rw [shapeCast_self, shapeCast_self]
  exact Cert.Tile.matmul_rows (R := 100000) (M := 5000) (K := 128) (N := 128) X W x0 x1 (T * 5000) h0 h1 j i hi0 hi1

/-- WHAT POINT `t` WRITES BACK is block `t` of the product. -/
theorem flushed_eq (c : Dev nD) (t : Fin cfg4.N) :
    (dat4 V c).flushed 2 t = ((cfg4.win 2).blk t).view.read (Elt Ideal) (product V c) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e0, e1, e2, e3, e4, e5⟩ := idx_facts t
  funext j
  show k4_pay1 (iblk4 V c 0 t) (iblk4 V c 1 t) j = product V c (((cfg4.win 2).blk t).view.emb j)
  unfold product
  refine payload_rows (V c main_v69) (V c main_v71) (iblk4 V c 0 t) (iblk4 V c 1 t) t.val ?_ ?_ j (((cfg4.win 2).blk t).view.emb j) ?_ ?_
  · intro y i h0 h1
    show V c main_v69 (((cfg4.win 0).blk t).view.emb y) = V c main_v69 i
    refine congrArg (V c main_v69) (funext fun a => Fin.ext ?_)
    match a with
    | ⟨0, _⟩ => show win4_0.index t (0 : Fin 2) * 5000 + 1 * (y 0).val = (i 0).val; omega
    | ⟨1, _⟩ => show win4_0.index t (1 : Fin 2) * 128 + 1 * (y 1).val = (i 1).val; omega
  · intro y
    show V c main_v71 (((cfg4.win 1).blk t).view.emb y) = V c main_v71 y
    refine congrArg (V c main_v71) (funext fun a => Fin.ext ?_)
    match a with
    | ⟨0, _⟩ => show win4_1.index t (0 : Fin 2) * 128 + 1 * (y 0).val = (y 0).val; omega
    | ⟨1, _⟩ => show win4_1.index t (1 : Fin 2) * 128 + 1 * (y 1).val = (y 1).val; omega
  · show win4_2.index t (0 : Fin 2) * 5000 + 1 * (j 0).val = t.val * 5000 + (j 0).val; omega
  · show win4_2.index t (1 : Fin 2) * 128 + 1 * (j 1).val = (j 1).val; omega

/-- An index of the output array is in point `t`'s block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v72).slice (win4_2.rect t)).set ↔ _
  rw [View.set_slice_whole, Rect.mem_set_unit]
  exact Iff.rfl

/-- Row `r` is in the block of point `r / 5000`: the twenty blocks cover the array. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  refine ⟨⟨(i 0).val / 5000, by rw [show cfg4.N = 20 from N_4]; omega⟩, flush4_2 _, ?_⟩
  rw [mem_blk]
  obtain ⟨e0, e1, e2, e3, e4, e5⟩ := idx_facts ⟨(i 0).val / 5000, by rw [show cfg4.N = 20 from N_4]; omega⟩
  intro a
  match a with
  | ⟨0, _⟩ =>
    show win4_2.index _ (0 : Fin 2) * 5000 ≤ (i 0).val ∧ (i 0).val < win4_2.index _ (0 : Fin 2) * 5000 + 5000
    rw [e4]; show (i 0).val / 5000 * 5000 ≤ (i 0).val ∧ (i 0).val < (i 0).val / 5000 * 5000 + 5000; omega
  | ⟨1, _⟩ =>
    show win4_2.index _ (1 : Fin 2) * 128 ≤ (i 1).val ∧ (i 1).val < win4_2.index _ (1 : Fin 2) * 128 + 128
    rw [e5]; omega

/-- THE OUTPUT ARRAY after the region: the product of the operand arrays as the region found them. -/
theorem final (c : Dev nD) : (dat4 V c).arrAt 2 cfg4.N = product V c :=
  (dat4 V c).arrAt_eq_of_cover 2 (product V c) (fun t _ => flushed_eq V c t) (cover)

end Cert.KernelIdeal.Region4

end
-- ==== Proof.Region5.lean ====
/-
  Region 5 (bias and clamp, 20 row tiles of 5000 rows): the array it leaves is `max (S + b, 0)`, row by row.

  At grid point `t` the region stages rows `5000 t … 5000 t + 4999` of the aggregated features `S` and the whole
  one-row bias `b` ([1, 128]), adds the bias to every row of the tile, clamps at zero from below, and writes the tile
  back to the same rows. Each written tile is the same rows of the host's spelling of that function of the whole arrays
  (`Cert.Tile.bias_relu_rows`), the twenty tiles cover the 100000 rows, and so the output array ends holding it,
  whatever the region found in its operands (`V`).
-/
import proofs.«164210_j54150947668273_1_alg».proof.Defs
import proofs.«164210_j54150947668273_1_alg».proof.Proof.Gen.KernelIdeal.Frame
import proofs.«164210_j54150947668273_1_alg».proof.Proof.Gen.ReferenceIdeal
import proofs.«164210_j54150947668273_1_alg».proof.Proof.Tile
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The bias added to every row and the clamp at zero, of whole arrays, in the host's spelling. -/
def clamped (S : FVec Ideal S100000x128 .f32) (B : FVec Ideal S1x128 .f32) : FVec Ideal S100000x128 .f32 :=
  maximumf (addf S (broadcastInDim Cert.ReferenceIdeal.S100000x128 ![0, 1] Cert.ReferenceIdeal.Facts₀.bcast_S1x128_S100000x128_0_1 B))
    (broadcastInDim Cert.ReferenceIdeal.S100000x128 ![] Cert.ReferenceIdeal.Facts₀.bcast_S_S100000x128
      (constant (F := Ideal) Cert.ReferenceIdeal.S_ .f32 0x00000000#32))

/-- That function of the two operand arrays as the region finds them. -/
def result (c : Dev nD) : Buf (Elt Ideal) ((c : Thread nD τ).loc main_v89) :=
  clamped (V c main_v85) (V c main_v88)

/-- The printed index maps over the grid: the row tiles move with the grid point, the bias does not move. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The body's arithmetic on a row tile `x0` (rows `5000 T + ·` of `S`) and the bias row `x1`, at an element of the tile. -/
theorem payload_rows (S : FVec Ideal S100000x128 .f32) (B : FVec Ideal S1x128 .f32)
    (x0 : Vec Ideal S5000x128 .f32) (x1 : Vec Ideal S1x128 .f32) (T : Nat)
    (h0 : ∀ (y : S5000x128.Idx) (i : S100000x128.Idx), (i 0).val = T * 5000 + (y 0).val → (i 1).val = (y 1).val → x0 y = S i)
    (h1 : ∀ y, x1 y = B y)
    (j : S5000x128.Idx) (i : S100000x128.Idx) (hi0 : (i 0).val = T * 5000 + (j 0).val) (hi1 : (i 1).val = (j 1).val) :
    k5_pay1 x0 x1 j = clamped S B i := by
  unfold k5_pay1 clamped
  rw [shapeCast_self, shapeCast_self]
  exact Cert.Tile.bias_relu_rows (R := 100000) (M := 5000) (N := 128) S B x0 x1 (T * 5000) h0 h1 _ _ _ j i hi0 hi1

/-- WHAT POINT `t` WRITES BACK is block `t` of the result. -/
theorem flushed_eq (c : Dev nD) (t : Fin cfg5.N) :
    (dat5 V c).flushed 2 t = ((cfg5.win 2).blk t).view.read (Elt Ideal) (result V c) := by
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  obtain ⟨e0, e1, e2, e3, e4, e5⟩ := idx_facts t
  funext j
  show k5_pay1 (iblk5 V c 0 t) (iblk5 V c 1 t) j = result V c (((cfg5.win 2).blk t).view.emb j)
  unfold result
  refine payload_rows (V c main_v85) (V c main_v88) (iblk5 V c 0 t) (iblk5 V c 1 t) t.val ?_ ?_ j (((cfg5.win 2).blk t).view.emb j) ?_ ?_
  · intro y i h0 h1
    show V c main_v85 (((cfg5.win 0).blk t).view.emb y) = V c main_v85 i
    refine congrArg (V c main_v85) (funext fun a => Fin.ext ?_)
    match a with
    | ⟨0, _⟩ => show win5_0.index t (0 : Fin 2) * 5000 + 1 * (y 0).val = (i 0).val; omega
    | ⟨1, _⟩ => show win5_0.index t (1 : Fin 2) * 128 + 1 * (y 1).val = (i 1).val; omega
  · intro y
    show V c main_v88 (((cfg5.win 1).blk t).view.emb y) = V c main_v88 y
    refine congrArg (V c main_v88) (funext fun a => Fin.ext ?_)
    match a with
    | ⟨0, _⟩ => show win5_1.index t (0 : Fin 2) * 1 + 1 * (y 0).val = (y 0).val; omega
    | ⟨1, _⟩ => show win5_1.index t (1 : Fin 2) * 128 + 1 * (y 1).val = (y 1).val; omega
  · show win5_2.index t (0 : Fin 2) * 5000 + 1 * (j 0).val = t.val * 5000 + (j 0).val; omega
  · show win5_2.index t (1 : Fin 2) * 128 + 1 * (j 1).val = (j 1).val; omega

/-- An index of the output array is in point `t`'s block iff each coordinate is in the block's range on its axis. -/
theorem mem_blk (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v89).slice (win5_2.rect t)).set ↔ _
  rw [View.set_slice_whole, Rect.mem_set_unit]
  exact Iff.rfl

/-- Row `r` is in the block of point `r / 5000`: the twenty blocks cover the array. -/
theorem cover (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  refine ⟨⟨(i 0).val / 5000, by rw [show cfg5.N = 20 from N_5]; omega⟩, flush5_2 _, ?_⟩
  rw [mem_blk]
  obtain ⟨e0, e1, e2, e3, e4, e5⟩ := idx_facts ⟨(i 0).val / 5000, by rw [show cfg5.N = 20 from N_5]; omega⟩
  intro a
  match a with
  | ⟨0, _⟩ =>
    show win5_2.index _ (0 : Fin 2) * 5000 ≤ (i 0).val ∧ (i 0).val < win5_2.index _ (0 : Fin 2) * 5000 + 5000
    rw [e4]; show (i 0).val / 5000 * 5000 ≤ (i 0).val ∧ (i 0).val < (i 0).val / 5000 * 5000 + 5000; omega
  | ⟨1, _⟩ =>
    show win5_2.index _ (1 : Fin 2) * 128 ≤ (i 1).val ∧ (i 1).val < win5_2.index _ (1 : Fin 2) * 128 + 128
    rw [e5]; omega

/-- THE OUTPUT ARRAY after the region: the bias added and the clamp applied to the operand arrays as the region found them. -/
theorem final (c : Dev nD) : (dat5 V c).arrAt 2 cfg5.N = result V c :=
  (dat5 V c).arrAt_eq_of_cover 2 (result V c) (fun t _ => flushed_eq V c t) (cover)

end Cert.KernelIdeal.Region5

end
-- ==== Proof.ChainL2.lean ====
/-
  Layer 2 of the network, from region 4's entry (`Gen.W11`) to region 6's entry (`Gen.W15`).

  Region 4 leaves the product of the features and the layer's weight; the host stretch after it aggregates the
  projected rows over the edges and views the bias as one row; region 5 adds the bias row and clamps at zero, which is
  the layer of `Cert.Net`; the next stretch cuts the next layer's weight. The kept buffers are carried along.
-/
import proofs.«164210_j54150947668273_1_alg».proof.Defs
import proofs.«164210_j54150947668273_1_alg».proof.Proof.Gen.KernelIdeal.Frame
import proofs.«164210_j54150947668273_1_alg».proof.Proof.Net
import proofs.«164210_j54150947668273_1_alg».proof.Proof.ChainTac
import proofs.«164210_j54150947668273_1_alg».proof.Proof.ChainL1
import proofs.«164210_j54150947668273_1_alg».proof.Proof.Region4
import proofs.«164210_j54150947668273_1_alg».proof.Proof.Region5
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ChainTac

variable (m : (ℓ : Loc nD τ sig) → Buf (Elt Ideal) ℓ) (ρ : Dev nD → PrngReg) (c : Dev nD)

/-- The kept buffers at region 4's exit: none is one of its arrays. -/
theorem keeps12 : Keeps m c (W12 m ρ c) :=
  have k := keeps11 m ρ c
  { src := (W12_of_ne m ρ c main_v3 (by decide)).trans k.src
    dst := (W12_of_ne m ρ c main_v6 (by decide)).trans k.dst
    norm := (W12_of_ne m ρ c main_v29 (by decide)).trans k.norm
    a2 := (W12_of_ne m ρ c main_arg2 (by decide)).trans k.a2
    a3 := (W12_of_ne m ρ c main_arg3 (by decide)).trans k.a3
    a4 := (W12_of_ne m ρ c main_arg4 (by decide)).trans k.a4
    a5 := (W12_of_ne m ρ c main_arg5 (by decide)).trans k.a5
    a6 := (W12_of_ne m ρ c main_arg6 (by decide)).trans k.a6 }

/-- Region 4's output: the projected features. -/
theorem h12 : W12 m ρ c (Proc.devRef .tc main_v72)
    = Host.dotGeneral (F := Ideal) (φ₁ := .f32) (φ₂ := .f32) Cert.ReferenceIdeal.dot_S100000x128_S128x128_S100000x128_1_0_0_1_n_n none (X2 m c) (Cert.Net.wOf2 (m ((c : Thread nD τ).loc main_arg3))) :=
  ((W12_arr m ρ c 2).trans (Region4.final (V11 m ρ) c)).trans (by
    show Host.dotGeneral (F := Ideal) (φ₁ := .f32) (φ₂ := .f32) Cert.ReferenceIdeal.dot_S100000x128_S128x128_S100000x128_1_0_0_1_n_n none
      (W11 m ρ c (Proc.devRef .tc main_v69)) (W11 m ρ c (Proc.devRef .tc main_v71)) = _
    rw [x11 m ρ c, w11 m ρ c])

/-- The kept buffers after `hostOps5`: none of its operations writes one. -/
theorem keeps13 : Keeps m c (W13 m ρ c) :=
  have k := keeps12 m ρ c
  { src := (show W13 m ρ c (Proc.devRef .tc main_v3) = W12 m ρ c (Proc.devRef .tc main_v3) by carry_host hostOps5).trans k.src
    dst := (show W13 m ρ c (Proc.devRef .tc main_v6) = W12 m ρ c (Proc.devRef .tc main_v6) by carry_host hostOps5).trans k.dst
    norm := (show W13 m ρ c (Proc.devRef .tc main_v29) = W12 m ρ c (Proc.devRef .tc main_v29) by carry_host hostOps5).trans k.norm
    a2 := (show W13 m ρ c (Proc.devRef .tc main_arg2) = W12 m ρ c (Proc.devRef .tc main_arg2) by carry_host hostOps5).trans k.a2
    a3 := (show W13 m ρ c (Proc.devRef .tc main_arg3) = W12 m ρ c (Proc.devRef .tc main_arg3) by carry_host hostOps5).trans k.a3
    a4 := (show W13 m ρ c (Proc.devRef .tc main_arg4) = W12 m ρ c (Proc.devRef .tc main_arg4) by carry_host hostOps5).trans k.a4
    a5 := (show W13 m ρ c (Proc.devRef .tc main_arg5) = W12 m ρ c (Proc.devRef .tc main_arg5) by carry_host hostOps5).trans k.a5
    a6 := (show W13 m ρ c (Proc.devRef .tc main_arg6) = W12 m ρ c (Proc.devRef .tc main_arg6) by carry_host hostOps5).trans k.a6 }

/-- The aggregated rows and the bias row at region 5's entry. -/
theorem s13 : W13 m ρ c (Proc.devRef .tc main_v85)
    = Cert.Net.aggOf (Host.dotGeneral (F := Ideal) (φ₁ := .f32) (φ₂ := .f32) Cert.ReferenceIdeal.dot_S100000x128_S128x128_S100000x128_1_0_0_1_n_n none (X2 m c) (Cert.Net.wOf2 (m ((c : Thread nD τ).loc main_arg3)))) (m ((c : Thread nD τ).loc main_arg1)) :=
  have k := keeps12 m ρ c
  (Stretch.agg2 (W12 m ρ c) (m ((c : Thread nD τ).loc main_arg1)) k.src k.dst k.norm).trans (by rw [h12 m ρ c])
theorem b13 : W13 m ρ c (Proc.devRef .tc main_v88)
    = broadcastInDim Cert.ReferenceIdeal.S1x128 ![1] Cert.ReferenceIdeal.Facts₀.bcast_S128_S1x128_1 (Cert.Net.bOf2 (m ((c : Thread nD τ).loc main_arg4))) :=
  (Stretch.brow2 (W12 m ρ c)).trans (by rw [(keeps12 m ρ c).a4])

/-- The kept buffers at region 5's exit: none is one of its arrays. -/
theorem keeps14 : Keeps m c (W14 m ρ c) :=
  have k := keeps13 m ρ c
  { src := (W14_of_ne m ρ c main_v3 (by decide)).trans k.src
    dst := (W14_of_ne m ρ c main_v6 (by decide)).trans k.dst
    norm := (W14_of_ne m ρ c main_v29 (by decide)).trans k.norm
    a2 := (W14_of_ne m ρ c main_arg2 (by decide)).trans k.a2
    a3 := (W14_of_ne m ρ c main_arg3 (by decide)).trans k.a3
    a4 := (W14_of_ne m ρ c main_arg4 (by decide)).trans k.a4
    a5 := (W14_of_ne m ρ c main_arg5 (by decide)).trans k.a5
    a6 := (W14_of_ne m ρ c main_arg6 (by decide)).trans k.a6 }

/-- Region 5's output: the features after layer 2. -/
theorem o14 : W14 m ρ c (Proc.devRef .tc main_v89) = X3 m c :=
  ((W14_arr m ρ c 2).trans (Region5.final (V13 m ρ) c)).trans (by
    show Region5.clamped (W13 m ρ c (Proc.devRef .tc main_v85)) (W13 m ρ c (Proc.devRef .tc main_v88)) = _
    rw [s13 m ρ c, b13 m ρ c]
    exact (Cert.Net.layer_eq _ _ _ _).symm)

/-- The kept buffers after `hostOps6`: none of its operations writes one. -/
theorem keeps15 : Keeps m c (W15 m ρ c) :=
  have k := keeps14 m ρ c
  { src := (show W15 m ρ c (Proc.devRef .tc main_v3) = W14 m ρ c (Proc.devRef .tc main_v3) by carry_host hostOps6).trans k.src
    dst := (show W15 m ρ c (Proc.devRef .tc main_v6) = W14 m ρ c (Proc.devRef .tc main_v6) by carry_host hostOps6).trans k.dst
    norm := (show W15 m ρ c (Proc.devRef .tc main_v29) = W14 m ρ c (Proc.devRef .tc main_v29) by carry_host hostOps6).trans k.norm
    a2 := (show W15 m ρ c (Proc.devRef .tc main_arg2) = W14 m ρ c (Proc.devRef .tc main_arg2) by carry_host hostOps6).trans k.a2
    a3 := (show W15 m ρ c (Proc.devRef .tc main_arg3) = W14 m ρ c (Proc.devRef .tc main_arg3) by carry_host hostOps6).trans k.a3
    a4 := (show W15 m ρ c (Proc.devRef .tc main_arg4) = W14 m ρ c (Proc.devRef .tc main_arg4) by carry_host hostOps6).trans k.a4
    a5 := (show W15 m ρ c (Proc.devRef .tc main_arg5) = W14 m ρ c (Proc.devRef .tc main_arg5) by carry_host hostOps6).trans k.a5
    a6 := (show W15 m ρ c (Proc.devRef .tc main_arg6) = W14 m ρ c (Proc.devRef .tc main_arg6) by carry_host hostOps6).trans k.a6 }

/-- Region 6's entry: the features after layer 2, and layer 3's weight. -/
theorem x15 : W15 m ρ c (Proc.devRef .tc main_v89) = X3 m c :=
  (show W15 m ρ c (Proc.devRef .tc main_v89) = W14 m ρ c (Proc.devRef .tc main_v89) by carry_host hostOps6).trans (o14 m ρ c)
theorem w15 : W15 m ρ c (Proc.devRef .tc main_v91) = Cert.Net.wOf3 (m ((c : Thread nD τ).loc main_arg3)) :=
  (Stretch.w3 (W14 m ρ c)).trans (by rw [(keeps14 m ρ c).a3])

end Cert.KernelIdeal.Chain

end
-- ==== Proof.Region6.lean ====
/-
  Region 6 (a dense projection, 20 row tiles of 5000 rows): the array it leaves is the whole matrix product.

  The region stages rows `5000 t … 5000 t + 4999` of its left operand and the whole 128 × 128 right operand at grid
  point `t`, multiplies them on the matrix unit into a zero accumulator (after a change of float format, the identity
  over the extended reals), and writes the tile back to the same rows of its output. Each written tile is therefore the
  same rows of the host's `dot_general` of the two whole arrays (`Cert.Tile.matmul_rows`), the twenty tiles cover the
  100000 rows, and so the output array ends holding that product, whatever the region found in its operands (`V`).
-/
import proofs.«164210_j54150947668273_1_alg».proof.Defs
import proofs.«164210_j54150947668273_1_alg».proof.Proof.Gen.KernelIdeal.Frame
import proofs.«164210_j54150947668273_1_alg».proof.Proof.Gen.ReferenceIdeal
import proofs.«164210_j54150947668273_1_alg».proof.Proof.Tile
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region6

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the two operand arrays as the region finds them, in the host's spelling. -/
def product (c : Dev nD) : Buf (Elt Ideal) ((c : Thread nD τ).loc main_v92) :=
  Host.dotGeneral (F := Ideal) (φ₁ := .f32) (φ₂ := .f32) Cert.ReferenceIdeal.dot_S100000x128_S128x128_S100000x128_1_0_0_1_n_n none
    (V c main_v89) (V c main_v91)

/-- The printed index maps over the grid: the row tiles move with the grid point, the weight does not move. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The body's arithmetic on a row tile `x0` (rows `5000 T + ·` of `X`) and the weight `x1`, at an element of the tile. -/
theorem payload_rows (X : FVec Ideal S100000x128 .f32) (W : FVec Ideal S128x128 .f32)
    (x0 : Vec Ideal S5000x128 .f32) (x1 : Vec Ideal S128x128 .f32) (T : Nat)
    (h0 : ∀ (y : S5000x128.Idx) (i : S100000x128.Idx), (i 0).val = T * 5000 + (y 0).val → (i 1).val = (y 1).val → x0 y = X i)
    (h1 : ∀ y, x1 y = W y)
    (j : S5000x128.Idx) (i : S100000x128.Idx) (hi0 : (i 0).val = T * 5000 + (j 0).val) (hi1 : (i 1).val = (j 1).val) :
    k6_pay1 x0 x1 j = Host.dotGeneral Cert.ReferenceIdeal.dot_S100000x128_S128x128_S100000x128_1_0_0_1_n_n none X W i := by
  unfold k6_pay1
  rw [shapeCast_self, shapeCast_self]
  exact Cert.Tile.matmul_rows (R := 100000) (M := 5000) (K := 128) (N := 128) X W x0 x1 (T * 5000) h0 h1 j i hi0 hi1

/-- WHAT POINT `t` WRITES BACK is block `t` of the product. -/
theorem flushed_eq (c : Dev nD) (t : Fin cfg6.N) :
    (dat6 V c).flushed 2 t = ((cfg6.win 2).blk t).view.read (Elt Ideal) (product V c) := by
  show (cfg6.win 2).cut (grid6.coords t) ((dat6 V c).after 2 t) = _
  rw [after6_2]
  unfold out6_2
  rw [View.canon_unit_zero hz]
  simp only [View.ld_unit_zero (S := S5000x128) hz, View.ld_unit_zero (S := S128x128) hz]
  obtain ⟨e0, e1, e2, e3, e4, e5⟩ := idx_facts t
  funext j
  show k6_pay1 (iblk6 V c 0 t) (iblk6 V c 1 t) j = product V c (((cfg6.win 2).blk t).view.emb j)
  unfold product
  refine payload_rows (V c main_v89) (V c main_v91) (iblk6 V c 0 t) (iblk6 V c 1 t) t.val ?_ ?_ j (((cfg6.win 2).blk t).view.emb j) ?_ ?_
  · intro y i h0 h1
    show V c main_v89 (((cfg6.win 0).blk t).view.emb y) = V c main_v89 i
    refine congrArg (V c main_v89) (funext fun a => Fin.ext ?_)
    match a with
    | ⟨0, _⟩ => show win6_0.index t (0 : Fin 2) * 5000 + 1 * (y 0).val = (i 0).val; omega
    | ⟨1, _⟩ => show win6_0.index t (1 : Fin 2) * 128 + 1 * (y 1).val = (i 1).val; omega
  · intro y
    show V c main_v91 (((cfg6.win 1).blk t).view.emb y) = V c main_v91 y
    refine congrArg (V c main_v91) (funext fun a => Fin.ext ?_)
    match a with
    | ⟨0, _⟩ => show win6_1.index t (0 : Fin 2) * 128 + 1 * (y 0).val = (y 0).val; omega
    | ⟨1, _⟩ => show win6_1.index t (1 : Fin 2) * 128 + 1 * (y 1).val = (y 1).val; omega
  · show win6_2.index t (0 : Fin 2) * 5000 + 1 * (j 0).val = t.val * 5000 + (j 0).val; omega
  · show win6_2.index t (1 : Fin 2) * 128 + 1 * (j 1).val = (j 1).val; omega

/-- An index of the output array is in point `t`'s block iff each coordinate is in the block's range on its axis. -/
theorem mem_blk (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v92).slice (win6_2.rect t)).set ↔ _
  rw [View.set_slice_whole, Rect.mem_set_unit]
  exact Iff.rfl

/-- Row `r` is in the block of point `r / 5000`: the twenty blocks cover the array. -/
theorem cover (i : S100000x128.Idx) : ∃ t : Fin cfg6.N, (cfg6.win 2).flush t = true ∧ i ∈ ((cfg6.win 2).blk t).view.set := by
  have hi0 : (i 0).val < 100000 := (i 0).isLt
  have hi1 : (i 1).val < 128 := (i 1).isLt
  refine ⟨⟨(i 0).val / 5000, by rw [show cfg6.N = 20 from N_6]; omega⟩, flush6_2 _, ?_⟩
  rw [mem_blk]
  obtain ⟨e0, e1, e2, e3, e4, e5⟩ := idx_facts ⟨(i 0).val / 5000, by rw [show cfg6.N = 20 from N_6]; omega⟩
  intro a
  match a with
  | ⟨0, _⟩ =>
    show win6_2.index _ (0 : Fin 2) * 5000 ≤ (i 0).val ∧ (i 0).val < win6_2.index _ (0 : Fin 2) * 5000 + 5000
    rw [e4]; show (i 0).val / 5000 * 5000 ≤ (i 0).val ∧ (i 0).val < (i 0).val / 5000 * 5000 + 5000; omega
  | ⟨1, _⟩ =>
    show win6_2.index _ (1 : Fin 2) * 128 ≤ (i 1).val ∧ (i 1).val < win6_2.index _ (1 : Fin 2) * 128 + 128
    rw [e5]; omega

/-- THE OUTPUT ARRAY after the region: the product of the operand arrays as the region found them. -/
theorem final (c : Dev nD) : (dat6 V c).arrAt 2 cfg6.N = product V c :=
  (dat6 V c).arrAt_eq_of_cover 2 (product V c) (fun t _ => flushed_eq V c t) (cover)

end Cert.KernelIdeal.Region6

end
-- ==== Proof.Region7.lean ====
/-
  Region 7 (bias and clamp, 20 row tiles of 5000 rows): the array it leaves is `max (S + b, 0)`, row by row.

  At grid point `t` the region stages rows `5000 t … 5000 t + 4999` of the aggregated features `S` and the whole
  one-row bias `b` ([1, 128]), adds the bias to every row of the tile, clamps at zero from below, and writes the tile
  back to the same rows. Each written tile is the same rows of the host's spelling of that function of the whole arrays
  (`Cert.Tile.bias_relu_rows`), the twenty tiles cover the 100000 rows, and so the output array ends holding it,
  whatever the region found in its operands (`V`).
-/
import proofs.«164210_j54150947668273_1_alg».proof.Defs
import proofs.«164210_j54150947668273_1_alg».proof.Proof.Gen.KernelIdeal.Frame
import proofs.«164210_j54150947668273_1_alg».proof.Proof.Gen.ReferenceIdeal
import proofs.«164210_j54150947668273_1_alg».proof.Proof.Tile
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region7

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The bias added to every row and the clamp at zero, of whole arrays, in the host's spelling. -/
def clamped (S : FVec Ideal S100000x128 .f32) (B : FVec Ideal S1x128 .f32) : FVec Ideal S100000x128 .f32 :=
  maximumf (addf S (broadcastInDim Cert.ReferenceIdeal.S100000x128 ![0, 1] Cert.ReferenceIdeal.Facts₀.bcast_S1x128_S100000x128_0_1 B))
    (broadcastInDim Cert.ReferenceIdeal.S100000x128 ![] Cert.ReferenceIdeal.Facts₀.bcast_S_S100000x128
      (constant (F := Ideal) Cert.ReferenceIdeal.S_ .f32 0x00000000#32))

/-- That function of the two operand arrays as the region finds them. -/
def result (c : Dev nD) : Buf (Elt Ideal) ((c : Thread nD τ).loc main_v109) :=
  clamped (V c main_v105) (V c main_v108)

/-- The printed index maps over the grid: the row tiles move with the grid point, the bias does not move. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The body's arithmetic on a row tile `x0` (rows `5000 T + ·` of `S`) and the bias row `x1`, at an element of the tile. -/
theorem payload_rows (S : FVec Ideal S100000x128 .f32) (B : FVec Ideal S1x128 .f32)
    (x0 : Vec Ideal S5000x128 .f32) (x1 : Vec Ideal S1x128 .f32) (T : Nat)
    (h0 : ∀ (y : S5000x128.Idx) (i : S100000x128.Idx), (i 0).val = T * 5000 + (y 0).val → (i 1).val = (y 1).val → x0 y = S i)
    (h1 : ∀ y, x1 y = B y)
    (j : S5000x128.Idx) (i : S100000x128.Idx) (hi0 : (i 0).val = T * 5000 + (j 0).val) (hi1 : (i 1).val = (j 1).val) :
    k7_pay1 x0 x1 j = clamped S B i := by
  unfold k7_pay1 clamped
  rw [shapeCast_self, shapeCast_self]
  exact Cert.Tile.bias_relu_rows (R := 100000) (M := 5000) (N := 128) S B x0 x1 (T * 5000) h0 h1 _ _ _ j i hi0 hi1

/-- WHAT POINT `t` WRITES BACK is block `t` of the result. -/
theorem flushed_eq (c : Dev nD) (t : Fin cfg7.N) :
    (dat7 V c).flushed 2 t = ((cfg7.win 2).blk t).view.read (Elt Ideal) (result V c) := by
  show (cfg7.win 2).cut (grid7.coords t) ((dat7 V c).after 2 t) = _
  rw [after7_2]
  unfold out7_2
  rw [View.canon_unit_zero hz]
  simp only [View.ld_unit_zero (S := S5000x128) hz, View.ld_unit_zero (S := S1x128) hz]
  obtain ⟨e0, e1, e2, e3, e4, e5⟩ := idx_facts t
  funext j
  show k7_pay1 (iblk7 V c 0 t) (iblk7 V c 1 t) j = result V c (((cfg7.win 2).blk t).view.emb j)
  unfold result
  refine payload_rows (V c main_v105) (V c main_v108) (iblk7 V c 0 t) (iblk7 V c 1 t) t.val ?_ ?_ j (((cfg7.win 2).blk t).view.emb j) ?_ ?_
  · intro y i h0 h1
    show V c main_v105 (((cfg7.win 0).blk t).view.emb y) = V c main_v105 i
    refine congrArg (V c main_v105) (funext fun a => Fin.ext ?_)
    match a with
    | ⟨0, _⟩ => show win7_0.index t (0 : Fin 2) * 5000 + 1 * (y 0).val = (i 0).val; omega
    | ⟨1, _⟩ => show win7_0.index t (1 : Fin 2) * 128 + 1 * (y 1).val = (i 1).val; omega
  · intro y
    show V c main_v108 (((cfg7.win 1).blk t).view.emb y) = V c main_v108 y
    refine congrArg (V c main_v108) (funext fun a => Fin.ext ?_)
    match a with
    | ⟨0, _⟩ => show win7_1.index t (0 : Fin 2) * 1 + 1 * (y 0).val = (y 0).val; omega
    | ⟨1, _⟩ => show win7_1.index t (1 : Fin 2) * 128 + 1 * (y 1).val = (y 1).val; omega
  · show win7_2.index t (0 : Fin 2) * 5000 + 1 * (j 0).val = t.val * 5000 + (j 0).val; omega
  · show win7_2.index t (1 : Fin 2) * 128 + 1 * (j 1).val = (j 1).val; omega

/-- An index of the output array is in point `t`'s block iff each coordinate is in the block's range on its axis. -/
theorem mem_blk (t : Fin cfg7.N) (i : S100000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v109).slice (win7_2.rect t)).set ↔ _
  rw [View.set_slice_whole, Rect.mem_set_unit]
  exact Iff.rfl

/-- Row `r` is in the block of point `r / 5000`: the twenty blocks cover the array. -/
theorem cover (i : S100000x128.Idx) : ∃ t : Fin cfg7.N, (cfg7.win 2).flush t = true ∧ i ∈ ((cfg7.win 2).blk t).view.set := by
  have hi0 : (i 0).val < 100000 := (i 0).isLt
  have hi1 : (i 1).val < 128 := (i 1).isLt
  refine ⟨⟨(i 0).val / 5000, by rw [show cfg7.N = 20 from N_7]; omega⟩, flush7_2 _, ?_⟩
  rw [mem_blk]
  obtain ⟨e0, e1, e2, e3, e4, e5⟩ := idx_facts ⟨(i 0).val / 5000, by rw [show cfg7.N = 20 from N_7]; omega⟩
  intro a
  match a with
  | ⟨0, _⟩ =>
    show win7_2.index _ (0 : Fin 2) * 5000 ≤ (i 0).val ∧ (i 0).val < win7_2.index _ (0 : Fin 2) * 5000 + 5000
    rw [e4]; show (i 0).val / 5000 * 5000 ≤ (i 0).val ∧ (i 0).val < (i 0).val / 5000 * 5000 + 5000; omega
  | ⟨1, _⟩ =>
    show win7_2.index _ (1 : Fin 2) * 128 ≤ (i 1).val ∧ (i 1).val < win7_2.index _ (1 : Fin 2) * 128 + 128
    rw [e5]; omega

/-- THE OUTPUT ARRAY after the region: the bias added and the clamp applied to the operand arrays as the region found them. -/
theorem final (c : Dev nD) : (dat7 V c).arrAt 2 cfg7.N = result V c :=
  (dat7 V c).arrAt_eq_of_cover 2 (result V c) (fun t _ => flushed_eq V c t) (cover)

end Cert.KernelIdeal.Region7

end
-- ==== Proof.ChainL3.lean ====
/-
  Layer 3 of the network, from region 6's entry (`Gen.W15`) to region 8's entry (`Gen.W19`).

  Region 6 leaves the product of the features and the layer's weight; the host stretch after it aggregates the
  projected rows over the edges and views the bias as one row; region 7 adds the bias row and clamps at zero, which is
  the layer of `Cert.Net`; the next stretch cuts the next layer's weight. The kept buffers are carried along.
-/
import proofs.«164210_j54150947668273_1_alg».proof.Defs
import proofs.«164210_j54150947668273_1_alg».proof.Proof.Gen.KernelIdeal.Frame
import proofs.«164210_j54150947668273_1_alg».proof.Proof.Net
import proofs.«164210_j54150947668273_1_alg».proof.Proof.ChainTac
import proofs.«164210_j54150947668273_1_alg».proof.Proof.ChainL2
import proofs.«164210_j54150947668273_1_alg».proof.Proof.Region6
import proofs.«164210_j54150947668273_1_alg».proof.Proof.Region7
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ChainTac

variable (m : (ℓ : Loc nD τ sig) → Buf (Elt Ideal) ℓ) (ρ : Dev nD → PrngReg) (c : Dev nD)

/-- The kept buffers at region 6's exit: none is one of its arrays. -/
theorem keeps16 : Keeps m c (W16 m ρ c) :=
  have k := keeps15 m ρ c
  { src := (W16_of_ne m ρ c main_v3 (by decide)).trans k.src
    dst := (W16_of_ne m ρ c main_v6 (by decide)).trans k.dst
    norm := (W16_of_ne m ρ c main_v29 (by decide)).trans k.norm
    a2 := (W16_of_ne m ρ c main_arg2 (by decide)).trans k.a2
    a3 := (W16_of_ne m ρ c main_arg3 (by decide)).trans k.a3
    a4 := (W16_of_ne m ρ c main_arg4 (by decide)).trans k.a4
    a5 := (W16_of_ne m ρ c main_arg5 (by decide)).trans k.a5
    a6 := (W16_of_ne m ρ c main_arg6 (by decide)).trans k.a6 }

/-- Region 6's output: the projected features. -/
theorem h16 : W16 m ρ c (Proc.devRef .tc main_v92)
    = Host.dotGeneral (F := Ideal) (φ₁ := .f32) (φ₂ := .f32) Cert.ReferenceIdeal.dot_S100000x128_S128x128_S100000x128_1_0_0_1_n_n none (X3 m c) (Cert.Net.wOf3 (m ((c : Thread nD τ).loc main_arg3))) :=
  ((W16_arr m ρ c 2).trans (Region6.final (V15 m ρ) c)).trans (by
    show Host.dotGeneral (F := Ideal) (φ₁ := .f32) (φ₂ := .f32) Cert.ReferenceIdeal.dot_S100000x128_S128x128_S100000x128_1_0_0_1_n_n none
      (W15 m ρ c (Proc.devRef .tc main_v89)) (W15 m ρ c (Proc.devRef .tc main_v91)) = _
    rw [x15 m ρ c, w15 m ρ c])

/-- The kept buffers after `hostOps7`: none of its operations writes one. -/
theorem keeps17 : Keeps m c (W17 m ρ c) :=
  have k := keeps16 m ρ c
  { src := (show W17 m ρ c (Proc.devRef .tc main_v3) = W16 m ρ c (Proc.devRef .tc main_v3) by carry_host hostOps7).trans k.src
    dst := (show W17 m ρ c (Proc.devRef .tc main_v6) = W16 m ρ c (Proc.devRef .tc main_v6) by carry_host hostOps7).trans k.dst
    norm := (show W17 m ρ c (Proc.devRef .tc main_v29) = W16 m ρ c (Proc.devRef .tc main_v29) by carry_host hostOps7).trans k.norm
    a2 := (show W17 m ρ c (Proc.devRef .tc main_arg2) = W16 m ρ c (Proc.devRef .tc main_arg2) by carry_host hostOps7).trans k.a2
    a3 := (show W17 m ρ c (Proc.devRef .tc main_arg3) = W16 m ρ c (Proc.devRef .tc main_arg3) by carry_host hostOps7).trans k.a3
    a4 := (show W17 m ρ c (Proc.devRef .tc main_arg4) = W16 m ρ c (Proc.devRef .tc main_arg4) by carry_host hostOps7).trans k.a4
    a5 := (show W17 m ρ c (Proc.devRef .tc main_arg5) = W16 m ρ c (Proc.devRef .tc main_arg5) by carry_host hostOps7).trans k.a5
    a6 := (show W17 m ρ c (Proc.devRef .tc main_arg6) = W16 m ρ c (Proc.devRef .tc main_arg6) by carry_host hostOps7).trans k.a6 }

/-- The aggregated rows and the bias row at region 7's entry. -/
theorem s17 : W17 m ρ c (Proc.devRef .tc main_v105)
    = Cert.Net.aggOf (Host.dotGeneral (F := Ideal) (φ₁ := .f32) (φ₂ := .f32) Cert.ReferenceIdeal.dot_S100000x128_S128x128_S100000x128_1_0_0_1_n_n none (X3 m c) (Cert.Net.wOf3 (m ((c : Thread nD τ).loc main_arg3)))) (m ((c : Thread nD τ).loc main_arg1)) :=
  have k := keeps16 m ρ c
  (Stretch.agg3 (W16 m ρ c) (m ((c : Thread nD τ).loc main_arg1)) k.src k.dst k.norm).trans (by rw [h16 m ρ c])
theorem b17 : W17 m ρ c (Proc.devRef .tc main_v108)
    = broadcastInDim Cert.ReferenceIdeal.S1x128 ![1] Cert.ReferenceIdeal.Facts₀.bcast_S128_S1x128_1 (Cert.Net.bOf3 (m ((c : Thread nD τ).loc main_arg4))) :=
  (Stretch.brow3 (W16 m ρ c)).trans (by rw [(keeps16 m ρ c).a4])

/-- The kept buffers at region 7's exit: none is one of its arrays. -/
theorem keeps18 : Keeps m c (W18 m ρ c) :=
  have k := keeps17 m ρ c
  { src := (W18_of_ne m ρ c main_v3 (by decide)).trans k.src
    dst := (W18_of_ne m ρ c main_v6 (by decide)).trans k.dst
    norm := (W18_of_ne m ρ c main_v29 (by decide)).trans k.norm
    a2 := (W18_of_ne m ρ c main_arg2 (by decide)).trans k.a2
    a3 := (W18_of_ne m ρ c main_arg3 (by decide)).trans k.a3
    a4 := (W18_of_ne m ρ c main_arg4 (by decide)).trans k.a4
    a5 := (W18_of_ne m ρ c main_arg5 (by decide)).trans k.a5
    a6 := (W18_of_ne m ρ c main_arg6 (by decide)).trans k.a6 }

/-- Region 7's output: the features after layer 3. -/
theorem o18 : W18 m ρ c (Proc.devRef .tc main_v109) = X4 m c :=
  ((W18_arr m ρ c 2).trans (Region7.final (V17 m ρ) c)).trans (by
    show Region7.clamped (W17 m ρ c (Proc.devRef .tc main_v105)) (W17 m ρ c (Proc.devRef .tc main_v108)) = _
    rw [s17 m ρ c, b17 m ρ c]
    exact (Cert.Net.layer_eq _ _ _ _).symm)

/-- The kept buffers after `hostOps8`: none of its operations writes one. -/
theorem keeps19 : Keeps m c (W19 m ρ c) :=
  have k := keeps18 m ρ c
  { src := (show W19 m ρ c (Proc.devRef .tc main_v3) = W18 m ρ c (Proc.devRef .tc main_v3) by carry_host hostOps8).trans k.src
    dst := (show W19 m ρ c (Proc.devRef .tc main_v6) = W18 m ρ c (Proc.devRef .tc main_v6) by carry_host hostOps8).trans k.dst
    norm := (show W19 m ρ c (Proc.devRef .tc main_v29) = W18 m ρ c (Proc.devRef .tc main_v29) by carry_host hostOps8).trans k.norm
    a2 := (show W19 m ρ c (Proc.devRef .tc main_arg2) = W18 m ρ c (Proc.devRef .tc main_arg2) by carry_host hostOps8).trans k.a2
    a3 := (show W19 m ρ c (Proc.devRef .tc main_arg3) = W18 m ρ c (Proc.devRef .tc main_arg3) by carry_host hostOps8).trans k.a3
    a4 := (show W19 m ρ c (Proc.devRef .tc main_arg4) = W18 m ρ c (Proc.devRef .tc main_arg4) by carry_host hostOps8).trans k.a4
    a5 := (show W19 m ρ c (Proc.devRef .tc main_arg5) = W18 m ρ c (Proc.devRef .tc main_arg5) by carry_host hostOps8).trans k.a5
    a6 := (show W19 m ρ c (Proc.devRef .tc main_arg6) = W18 m ρ c (Proc.devRef .tc main_arg6) by carry_host hostOps8).trans k.a6 }

/-- Region 8's entry: the features after layer 3, and layer 4's weight. -/
theorem x19 : W19 m ρ c (Proc.devRef .tc main_v109) = X4 m c :=
  (show W19 m ρ c (Proc.devRef .tc main_v109) = W18 m ρ c (Proc.devRef .tc main_v109) by carry_host hostOps8).trans (o18 m ρ c)
theorem w19 : W19 m ρ c (Proc.devRef .tc main_v111) = Cert.Net.wOf4 (m ((c : Thread nD τ).loc main_arg3)) :=
  (Stretch.w4 (W18 m ρ c)).trans (by rw [(keeps18 m ρ c).a3])

end Cert.KernelIdeal.Chain

end
-- ==== Proof.Region8.lean ====
/-
  Region 8 (a dense projection, 20 row tiles of 5000 rows): the array it leaves is the whole matrix product.

  The region stages rows `5000 t … 5000 t + 4999` of its left operand and the whole 128 × 128 right operand at grid
  point `t`, multiplies them on the matrix unit into a zero accumulator (after a change of float format, the identity
  over the extended reals), and writes the tile back to the same rows of its output. Each written tile is therefore the
  same rows of the host's `dot_general` of the two whole arrays (`Cert.Tile.matmul_rows`), the twenty tiles cover the
  100000 rows, and so the output array ends holding that product, whatever the region found in its operands (`V`).
-/
import proofs.«164210_j54150947668273_1_alg».proof.Defs
import proofs.«164210_j54150947668273_1_alg».proof.Proof.Gen.KernelIdeal.Frame
import proofs.«164210_j54150947668273_1_alg».proof.Proof.Gen.ReferenceIdeal
import proofs.«164210_j54150947668273_1_alg».proof.Proof.Tile
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region8

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the two operand arrays as the region finds them, in the host's spelling. -/
def product (c : Dev nD) : Buf (Elt Ideal) ((c : Thread nD τ).loc main_v112) :=
  Host.dotGeneral (F := Ideal) (φ₁ := .f32) (φ₂ := .f32) Cert.ReferenceIdeal.dot_S100000x128_S128x128_S100000x128_1_0_0_1_n_n none
    (V c main_v109) (V c main_v111)

/-- The printed index maps over the grid: the row tiles move with the grid point, the weight does not move. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- The body's arithmetic on a row tile `x0` (rows `5000 T + ·` of `X`) and the weight `x1`, at an element of the tile. -/
theorem payload_rows (X : FVec Ideal S100000x128 .f32) (W : FVec Ideal S128x128 .f32)
    (x0 : Vec Ideal S5000x128 .f32) (x1 : Vec Ideal S128x128 .f32) (T : Nat)
    (h0 : ∀ (y : S5000x128.Idx) (i : S100000x128.Idx), (i 0).val = T * 5000 + (y 0).val → (i 1).val = (y 1).val → x0 y = X i)
    (h1 : ∀ y, x1 y = W y)
    (j : S5000x128.Idx) (i : S100000x128.Idx) (hi0 : (i 0).val = T * 5000 + (j 0).val) (hi1 : (i 1).val = (j 1).val) :
    k8_pay1 x0 x1 j = Host.dotGeneral Cert.ReferenceIdeal.dot_S100000x128_S128x128_S100000x128_1_0_0_1_n_n none X W i := by
  unfold k8_pay1
  rw [shapeCast_self, shapeCast_self]
  exact Cert.Tile.matmul_rows (R := 100000) (M := 5000) (K := 128) (N := 128) X W x0 x1 (T * 5000) h0 h1 j i hi0 hi1

/-- WHAT POINT `t` WRITES BACK is block `t` of the product. -/
theorem flushed_eq (c : Dev nD) (t : Fin cfg8.N) :
    (dat8 V c).flushed 2 t = ((cfg8.win 2).blk t).view.read (Elt Ideal) (product V c) := by
  show (cfg8.win 2).cut (grid8.coords t) ((dat8 V c).after 2 t) = _
  rw [after8_2]
  unfold out8_2
  rw [View.canon_unit_zero hz]
  simp only [View.ld_unit_zero (S := S5000x128) hz, View.ld_unit_zero (S := S128x128) hz]
  obtain ⟨e0, e1, e2, e3, e4, e5⟩ := idx_facts t
  funext j
  show k8_pay1 (iblk8 V c 0 t) (iblk8 V c 1 t) j = product V c (((cfg8.win 2).blk t).view.emb j)
  unfold product
  refine payload_rows (V c main_v109) (V c main_v111) (iblk8 V c 0 t) (iblk8 V c 1 t) t.val ?_ ?_ j (((cfg8.win 2).blk t).view.emb j) ?_ ?_
  · intro y i h0 h1
    show V c main_v109 (((cfg8.win 0).blk t).view.emb y) = V c main_v109 i
    refine congrArg (V c main_v109) (funext fun a => Fin.ext ?_)
    match a with
    | ⟨0, _⟩ => show win8_0.index t (0 : Fin 2) * 5000 + 1 * (y 0).val = (i 0).val; omega
    | ⟨1, _⟩ => show win8_0.index t (1 : Fin 2) * 128 + 1 * (y 1).val = (i 1).val; omega
  · intro y
    show V c main_v111 (((cfg8.win 1).blk t).view.emb y) = V c main_v111 y
    refine congrArg (V c main_v111) (funext fun a => Fin.ext ?_)
    match a with
    | ⟨0, _⟩ => show win8_1.index t (0 : Fin 2) * 128 + 1 * (y 0).val = (y 0).val; omega
    | ⟨1, _⟩ => show win8_1.index t (1 : Fin 2) * 128 + 1 * (y 1).val = (y 1).val; omega
  · show win8_2.index t (0 : Fin 2) * 5000 + 1 * (j 0).val = t.val * 5000 + (j 0).val; omega
  · show win8_2.index t (1 : Fin 2) * 128 + 1 * (j 1).val = (j 1).val; omega

/-- An index of the output array is in point `t`'s block iff each coordinate is in the block's range on its axis. -/
theorem mem_blk (t : Fin cfg8.N) (i : S100000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole main_v112).slice (win8_2.rect t)).set ↔ _
  rw [View.set_slice_whole, Rect.mem_set_unit]
  exact Iff.rfl

/-- Row `r` is in the block of point `r / 5000`: the twenty blocks cover the array. -/
theorem cover (i : S100000x128.Idx) : ∃ t : Fin cfg8.N, (cfg8.win 2).flush t = true ∧ i ∈ ((cfg8.win 2).blk t).view.set := by
  have hi0 : (i 0).val < 100000 := (i 0).isLt
  have hi1 : (i 1).val < 128 := (i 1).isLt
  refine ⟨⟨(i 0).val / 5000, by rw [show cfg8.N = 20 from N_8]; omega⟩, flush8_2 _, ?_⟩
  rw [mem_blk]
  obtain ⟨e0, e1, e2, e3, e4, e5⟩ := idx_facts ⟨(i 0).val / 5000, by rw [show cfg8.N = 20 from N_8]; omega⟩
  intro a
  match a with
  | ⟨0, _⟩ =>
    show win8_2.index _ (0 : Fin 2) * 5000 ≤ (i 0).val ∧ (i 0).val < win8_2.index _ (0 : Fin 2) * 5000 + 5000
    rw [e4]; show (i 0).val / 5000 * 5000 ≤ (i 0).val ∧ (i 0).val < (i 0).val / 5000 * 5000 + 5000; omega
  | ⟨1, _⟩ =>
    show win8_2.index _ (1 : Fin 2) * 128 ≤ (i 1).val ∧ (i 1).val < win8_2.index _ (1 : Fin 2) * 128 + 128
    rw [e5]; omega

/-- THE OUTPUT ARRAY after the region: the product of the operand arrays as the region found them. -/
theorem final (c : Dev nD) : (dat8 V c).arrAt 2 cfg8.N = product V c :=
  (dat8 V c).arrAt_eq_of_cover 2 (product V c) (fun t _ => flushed_eq V c t) (cover)

end Cert.KernelIdeal.Region8

end
-- ==== Proof.Region9.lean ====
/-
  Region 9 (bias and clamp, 20 row tiles of 5000 rows): the array it leaves is `max (S + b, 0)`, row by row.

  At grid point `t` the region stages rows `5000 t … 5000 t + 4999` of the aggregated features `S` and the whole
  one-row bias `b` ([1, 128]), adds the bias to every row of the tile, clamps at zero from below, and writes the tile
  back to the same rows. Each written tile is the same rows of the host's spelling of that function of the whole arrays
  (`Cert.Tile.bias_relu_rows`), the twenty tiles cover the 100000 rows, and so the output array ends holding it,
  whatever the region found in its operands (`V`).
-/
import proofs.«164210_j54150947668273_1_alg».proof.Defs
import proofs.«164210_j54150947668273_1_alg».proof.Proof.Gen.KernelIdeal.Frame
import proofs.«164210_j54150947668273_1_alg».proof.Proof.Gen.ReferenceIdeal
import proofs.«164210_j54150947668273_1_alg».proof.Proof.Tile
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region9

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The bias added to every row and the clamp at zero, of whole arrays, in the host's spelling. -/
def clamped (S : FVec Ideal S100000x128 .f32) (B : FVec Ideal S1x128 .f32) : FVec Ideal S100000x128 .f32 :=
  maximumf (addf S (broadcastInDim Cert.ReferenceIdeal.S100000x128 ![0, 1] Cert.ReferenceIdeal.Facts₀.bcast_S1x128_S100000x128_0_1 B))
    (broadcastInDim Cert.ReferenceIdeal.S100000x128 ![] Cert.ReferenceIdeal.Facts₀.bcast_S_S100000x128
      (constant (F := Ideal) Cert.ReferenceIdeal.S_ .f32 0x00000000#32))

/-- That function of the two operand arrays as the region finds them. -/
def result (c : Dev nD) : Buf (Elt Ideal) ((c : Thread nD τ).loc main_v129) :=
  clamped (V c main_v125) (V c main_v128)

/-- The printed index maps over the grid: the row tiles move with the grid point, the bias does not move. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- The body's arithmetic on a row tile `x0` (rows `5000 T + ·` of `S`) and the bias row `x1`, at an element of the tile. -/
theorem payload_rows (S : FVec Ideal S100000x128 .f32) (B : FVec Ideal S1x128 .f32)
    (x0 : Vec Ideal S5000x128 .f32) (x1 : Vec Ideal S1x128 .f32) (T : Nat)
    (h0 : ∀ (y : S5000x128.Idx) (i : S100000x128.Idx), (i 0).val = T * 5000 + (y 0).val → (i 1).val = (y 1).val → x0 y = S i)
    (h1 : ∀ y, x1 y = B y)
    (j : S5000x128.Idx) (i : S100000x128.Idx) (hi0 : (i 0).val = T * 5000 + (j 0).val) (hi1 : (i 1).val = (j 1).val) :
    k9_pay1 x0 x1 j = clamped S B i := by
  unfold k9_pay1 clamped
  rw [shapeCast_self, shapeCast_self]
  exact Cert.Tile.bias_relu_rows (R := 100000) (M := 5000) (N := 128) S B x0 x1 (T * 5000) h0 h1 _ _ _ j i hi0 hi1

/-- WHAT POINT `t` WRITES BACK is block `t` of the result. -/
theorem flushed_eq (c : Dev nD) (t : Fin cfg9.N) :
    (dat9 V c).flushed 2 t = ((cfg9.win 2).blk t).view.read (Elt Ideal) (result V c) := by
  show (cfg9.win 2).cut (grid9.coords t) ((dat9 V c).after 2 t) = _
  rw [after9_2]
  unfold out9_2
  rw [View.canon_unit_zero hz]
  simp only [View.ld_unit_zero (S := S5000x128) hz, View.ld_unit_zero (S := S1x128) hz]
  obtain ⟨e0, e1, e2, e3, e4, e5⟩ := idx_facts t
  funext j
  show k9_pay1 (iblk9 V c 0 t) (iblk9 V c 1 t) j = result V c (((cfg9.win 2).blk t).view.emb j)
  unfold result
  refine payload_rows (V c main_v125) (V c main_v128) (iblk9 V c 0 t) (iblk9 V c 1 t) t.val ?_ ?_ j (((cfg9.win 2).blk t).view.emb j) ?_ ?_
  · intro y i h0 h1
    show V c main_v125 (((cfg9.win 0).blk t).view.emb y) = V c main_v125 i
    refine congrArg (V c main_v125) (funext fun a => Fin.ext ?_)
    match a with
    | ⟨0, _⟩ => show win9_0.index t (0 : Fin 2) * 5000 + 1 * (y 0).val = (i 0).val; omega
    | ⟨1, _⟩ => show win9_0.index t (1 : Fin 2) * 128 + 1 * (y 1).val = (i 1).val; omega
  · intro y
    show V c main_v128 (((cfg9.win 1).blk t).view.emb y) = V c main_v128 y
    refine congrArg (V c main_v128) (funext fun a => Fin.ext ?_)
    match a with
    | ⟨0, _⟩ => show win9_1.index t (0 : Fin 2) * 1 + 1 * (y 0).val = (y 0).val; omega
    | ⟨1, _⟩ => show win9_1.index t (1 : Fin 2) * 128 + 1 * (y 1).val = (y 1).val; omega
  · show win9_2.index t (0 : Fin 2) * 5000 + 1 * (j 0).val = t.val * 5000 + (j 0).val; omega
  · show win9_2.index t (1 : Fin 2) * 128 + 1 * (j 1).val = (j 1).val; omega

/-- An index of the output array is in point `t`'s block iff each coordinate is in the block's range on its axis. -/
theorem mem_blk (t : Fin cfg9.N) (i : S100000x128.Idx) :
    i ∈ ((cfg9.win 2).blk t).view.set ↔ ∀ a : Fin 2, win9_2.index t a * S5000x128.size a ≤ (i a).val ∧ (i a).val < win9_2.index t a * S5000x128.size a + S5000x128.size a := by
  show i ∈ ((View.whole main_v129).slice (win9_2.rect t)).set ↔ _
  rw [View.set_slice_whole, Rect.mem_set_unit]
  exact Iff.rfl

/-- Row `r` is in the block of point `r / 5000`: the twenty blocks cover the array. -/
theorem cover (i : S100000x128.Idx) : ∃ t : Fin cfg9.N, (cfg9.win 2).flush t = true ∧ i ∈ ((cfg9.win 2).blk t).view.set := by
  have hi0 : (i 0).val < 100000 := (i 0).isLt
  have hi1 : (i 1).val < 128 := (i 1).isLt
  refine ⟨⟨(i 0).val / 5000, by rw [show cfg9.N = 20 from N_9]; omega⟩, flush9_2 _, ?_⟩
  rw [mem_blk]
  obtain ⟨e0, e1, e2, e3, e4, e5⟩ := idx_facts ⟨(i 0).val / 5000, by rw [show cfg9.N = 20 from N_9]; omega⟩
  intro a
  match a with
  | ⟨0, _⟩ =>
    show win9_2.index _ (0 : Fin 2) * 5000 ≤ (i 0).val ∧ (i 0).val < win9_2.index _ (0 : Fin 2) * 5000 + 5000
    rw [e4]; show (i 0).val / 5000 * 5000 ≤ (i 0).val ∧ (i 0).val < (i 0).val / 5000 * 5000 + 5000; omega
  | ⟨1, _⟩ =>
    show win9_2.index _ (1 : Fin 2) * 128 ≤ (i 1).val ∧ (i 1).val < win9_2.index _ (1 : Fin 2) * 128 + 128
    rw [e5]; omega

/-- THE OUTPUT ARRAY after the region: the bias added and the clamp applied to the operand arrays as the region found them. -/
theorem final (c : Dev nD) : (dat9 V c).arrAt 2 cfg9.N = result V c :=
  (dat9 V c).arrAt_eq_of_cover 2 (result V c) (fun t _ => flushed_eq V c t) (cover)

end Cert.KernelIdeal.Region9

end
-- ==== Proof.ChainL4.lean ====
/-
  Layer 4 of the network, from region 8's entry (`Gen.W19`) to region 9's exit (`Gen.W22`).

  Region 8 leaves the product of the features and the layer's weight; the host stretch after it aggregates the
  projected rows over the edges and views the bias as one row; region 9 adds the bias row and clamps at zero, which is
  the layer of `Cert.Net`. The kept buffers are carried along.
-/
import proofs.«164210_j54150947668273_1_alg».proof.Defs
import proofs.«164210_j54150947668273_1_alg».proof.Proof.Gen.KernelIdeal.Frame
import proofs.«164210_j54150947668273_1_alg».proof.Proof.Net
import proofs.«164210_j54150947668273_1_alg».proof.Proof.ChainTac
import proofs.«164210_j54150947668273_1_alg».proof.Proof.ChainL3
import proofs.«164210_j54150947668273_1_alg».proof.Proof.Region8
import proofs.«164210_j54150947668273_1_alg».proof.Proof.Region9
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ChainTac

variable (m : (ℓ : Loc nD τ sig) → Buf (Elt Ideal) ℓ) (ρ : Dev nD → PrngReg) (c : Dev nD)

/-- The kept buffers at region 8's exit: none is one of its arrays. -/
theorem keeps20 : Keeps m c (W20 m ρ c) :=
  have k := keeps19 m ρ c
  { src := (W20_of_ne m ρ c main_v3 (by decide)).trans k.src
    dst := (W20_of_ne m ρ c main_v6 (by decide)).trans k.dst
    norm := (W20_of_ne m ρ c main_v29 (by decide)).trans k.norm
    a2 := (W20_of_ne m ρ c main_arg2 (by decide)).trans k.a2
    a3 := (W20_of_ne m ρ c main_arg3 (by decide)).trans k.a3
    a4 := (W20_of_ne m ρ c main_arg4 (by decide)).trans k.a4
    a5 := (W20_of_ne m ρ c main_arg5 (by decide)).trans k.a5
    a6 := (W20_of_ne m ρ c main_arg6 (by decide)).trans k.a6 }

/-- Region 8's output: the projected features. -/
theorem h20 : W20 m ρ c (Proc.devRef .tc main_v112)
    = Host.dotGeneral (F := Ideal) (φ₁ := .f32) (φ₂ := .f32) Cert.ReferenceIdeal.dot_S100000x128_S128x128_S100000x128_1_0_0_1_n_n none (X4 m c) (Cert.Net.wOf4 (m ((c : Thread nD τ).loc main_arg3))) :=
  ((W20_arr m ρ c 2).trans (Region8.final (V19 m ρ) c)).trans (by
    show Host.dotGeneral (F := Ideal) (φ₁ := .f32) (φ₂ := .f32) Cert.ReferenceIdeal.dot_S100000x128_S128x128_S100000x128_1_0_0_1_n_n none
      (W19 m ρ c (Proc.devRef .tc main_v109)) (W19 m ρ c (Proc.devRef .tc main_v111)) = _
    rw [x19 m ρ c, w19 m ρ c])

/-- The kept buffers after `hostOps9`: none of its operations writes one. -/
theorem keeps21 : Keeps m c (W21 m ρ c) :=
  have k := keeps20 m ρ c
  { src := (show W21 m ρ c (Proc.devRef .tc main_v3) = W20 m ρ c (Proc.devRef .tc main_v3) by carry_host hostOps9).trans k.src
    dst := (show W21 m ρ c (Proc.devRef .tc main_v6) = W20 m ρ c (Proc.devRef .tc main_v6) by carry_host hostOps9).trans k.dst
    norm := (show W21 m ρ c (Proc.devRef .tc main_v29) = W20 m ρ c (Proc.devRef .tc main_v29) by carry_host hostOps9).trans k.norm
    a2 := (show W21 m ρ c (Proc.devRef .tc main_arg2) = W20 m ρ c (Proc.devRef .tc main_arg2) by carry_host hostOps9).trans k.a2
    a3 := (show W21 m ρ c (Proc.devRef .tc main_arg3) = W20 m ρ c (Proc.devRef .tc main_arg3) by carry_host hostOps9).trans k.a3
    a4 := (show W21 m ρ c (Proc.devRef .tc main_arg4) = W20 m ρ c (Proc.devRef .tc main_arg4) by carry_host hostOps9).trans k.a4
    a5 := (show W21 m ρ c (Proc.devRef .tc main_arg5) = W20 m ρ c (Proc.devRef .tc main_arg5) by carry_host hostOps9).trans k.a5
    a6 := (show W21 m ρ c (Proc.devRef .tc main_arg6) = W20 m ρ c (Proc.devRef .tc main_arg6) by carry_host hostOps9).trans k.a6 }

/-- The aggregated rows and the bias row at region 9's entry. -/
theorem s21 : W21 m ρ c (Proc.devRef .tc main_v125)
    = Cert.Net.aggOf (Host.dotGeneral (F := Ideal) (φ₁ := .f32) (φ₂ := .f32) Cert.ReferenceIdeal.dot_S100000x128_S128x128_S100000x128_1_0_0_1_n_n none (X4 m c) (Cert.Net.wOf4 (m ((c : Thread nD τ).loc main_arg3)))) (m ((c : Thread nD τ).loc main_arg1)) :=
  have k := keeps20 m ρ c
  (Stretch.agg4 (W20 m ρ c) (m ((c : Thread nD τ).loc main_arg1)) k.src k.dst k.norm).trans (by rw [h20 m ρ c])
theorem b21 : W21 m ρ c (Proc.devRef .tc main_v128)
    = broadcastInDim Cert.ReferenceIdeal.S1x128 ![1] Cert.ReferenceIdeal.Facts₀.bcast_S128_S1x128_1 (Cert.Net.bOf4 (m ((c : Thread nD τ).loc main_arg4))) :=
  (Stretch.brow4 (W20 m ρ c)).trans (by rw [(keeps20 m ρ c).a4])

/-- The kept buffers at region 9's exit: none is one of its arrays. -/
theorem keeps22 : Keeps m c (W22 m ρ c) :=
  have k := keeps21 m ρ c
  { src := (W22_of_ne m ρ c main_v3 (by decide)).trans k.src
    dst := (W22_of_ne m ρ c main_v6 (by decide)).trans k.dst
    norm := (W22_of_ne m ρ c main_v29 (by decide)).trans k.norm
    a2 := (W22_of_ne m ρ c main_arg2 (by decide)).trans k.a2
    a3 := (W22_of_ne m ρ c main_arg3 (by decide)).trans k.a3
    a4 := (W22_of_ne m ρ c main_arg4 (by decide)).trans k.a4
    a5 := (W22_of_ne m ρ c main_arg5 (by decide)).trans k.a5
    a6 := (W22_of_ne m ρ c main_arg6 (by decide)).trans k.a6 }

/-- Region 9's output: the features after layer 4. -/
theorem o22 : W22 m ρ c (Proc.devRef .tc main_v129) = X5 m c :=
  ((W22_arr m ρ c 2).trans (Region9.final (V21 m ρ) c)).trans (by
    show Region9.clamped (W21 m ρ c (Proc.devRef .tc main_v125)) (W21 m ρ c (Proc.devRef .tc main_v128)) = _
    rw [s21 m ρ c, b21 m ρ c]
    exact (Cert.Net.layer_eq _ _ _ _).symm)

end Cert.KernelIdeal.Chain

end
-- ==== Proof.Region10.lean ====
/-
  Region 10 (the classification head, one grid point on whole arrays): the array it leaves is `P · W + b`.

  The region stages the whole pooled features `P` ([512, 128]), the whole head weight `W` ([128, 10]) and the one-row
  bias `b` ([1, 10]); it multiplies on the matrix unit into a zero accumulator (after a change of float format, the
  identity over the extended reals), adds the bias to every row, and writes the whole [512, 10] block back. The written
  block is the host's `dot_general` plus the spread bias of the whole arrays (`Cert.Tile.matmul_rows` with offset 0,
  `Cert.Tile.bias_rows`), and the one block covers the array.
-/
import proofs.«164210_j54150947668273_1_alg».proof.Defs
import proofs.«164210_j54150947668273_1_alg».proof.Proof.Gen.KernelIdeal.Frame
import proofs.«164210_j54150947668273_1_alg».proof.Proof.Gen.ReferenceIdeal
import proofs.«164210_j54150947668273_1_alg».proof.Proof.Tile
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region10

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The head of whole arrays, in the host's spelling: the product plus the bias row spread over the rows. -/
def head (P : FVec Ideal S512x128 .f32) (W : FVec Ideal S128x10 .f32) (B : FVec Ideal S1x10 .f32) : FVec Ideal S512x10 .f32 :=
  addf (Host.dotGeneral (F := Ideal) (φ₁ := .f32) (φ₂ := .f32) Cert.ReferenceIdeal.dot_S512x128_S128x10_S512x10_1_0_0_1_n_n none P W)
    (broadcastInDim Cert.ReferenceIdeal.S512x10 ![0, 1] Cert.ReferenceIdeal.Facts₀.bcast_S1x10_S512x10_0_1 B)

/-- That function of the three operand arrays as the region finds them. -/
def result (c : Dev nD) : Buf (Elt Ideal) ((c : Thread nD τ).loc main_v143) :=
  head (V c main_v141) (V c main_arg5) (V c main_v142)

/-- The printed index maps at the one grid point: every block is block (0, 0). -/
theorem idx_facts : ∀ t : Fin cfg10.N, win10_0.index t (0 : Fin 2) = 0 ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0 :=
  (by decide +kernel : ∀ t : Fin grid10.N, _)

/-- The body's arithmetic on the staged blocks (each the whole array), at an element. -/
theorem payload_whole (P : FVec Ideal S512x128 .f32) (W : FVec Ideal S128x10 .f32) (B : FVec Ideal S1x10 .f32)
    (x0 : Vec Ideal S512x128 .f32) (x1 : Vec Ideal S128x10 .f32) (x2 : Vec Ideal S1x10 .f32)
    (h0 : ∀ y, x0 y = P y) (h1 : ∀ y, x1 y = W y) (h2 : ∀ y, x2 y = B y)
    (j : S512x10.Idx) (i : S512x10.Idx) (hi0 : (i 0).val = (j 0).val) (hi1 : (i 1).val = (j 1).val) :
    k10_pay1 x0 x1 x2 j = head P W B i := by
  unfold k10_pay1 head
  rw [shapeCast_self, shapeCast_self]
  refine Cert.Tile.bias_rows (R := 512) (M := 512) (N := 10) _ B _ x2 j i ?_ h2 _ _ hi1
  refine Cert.Tile.matmul_rows (R := 512) (M := 512) (K := 128) (N := 10) P W x0 x1 0 (fun y i' e0 e1 => ?_) h1 j i (by omega) hi1
  rw [h0]
  refine congrArg P (funext fun a => Fin.ext ?_)
  match a with
  | ⟨0, _⟩ => show (y 0).val = (i' 0).val; omega
  | ⟨1, _⟩ => show (y 1).val = (i' 1).val; omega

/-- WHAT THE ONE POINT WRITES BACK is the (whole-array) block of the result. -/
theorem flushed_eq (c : Dev nD) (t : Fin cfg10.N) :
    (dat10 V c).flushed 3 t = ((cfg10.win 3).blk t).view.read (Elt Ideal) (result V c) := by
  show (cfg10.win 3).cut (grid10.coords t) ((dat10 V c).after 3 t) = _
  rw [after10_3]
  unfold out10_3
  rw [View.canon_unit_zero hz]
  simp only [View.ld_unit_zero (S := S512x128) hz, View.ld_unit_zero (S := S128x10) hz, View.ld_unit_zero (S := S1x10) hz]
  obtain ⟨e0, e1, e2, e3, e4, e5, e6, e7⟩ := idx_facts t
  funext j
  show k10_pay1 (iblk10 V c 0 t) (iblk10 V c 1 t) (iblk10 V c 2 t) j = result V c (((cfg10.win 3).blk t).view.emb j)
  unfold result
  refine payload_whole (V c main_v141) (V c main_arg5) (V c main_v142) (iblk10 V c 0 t) (iblk10 V c 1 t) (iblk10 V c 2 t) ?_ ?_ ?_ j (((cfg10.win 3).blk t).view.emb j) ?_ ?_
  · intro y
    show V c main_v141 (((cfg10.win 0).blk t).view.emb y) = V c main_v141 y
    refine congrArg (V c main_v141) (funext fun a => Fin.ext ?_)
    match a with
    | ⟨0, _⟩ => show win10_0.index t (0 : Fin 2) * 512 + 1 * (y 0).val = (y 0).val; omega
    | ⟨1, _⟩ => show win10_0.index t (1 : Fin 2) * 128 + 1 * (y 1).val = (y 1).val; omega
  · intro y
    show V c main_arg5 (((cfg10.win 1).blk t).view.emb y) = V c main_arg5 y
    refine congrArg (V c main_arg5) (funext fun a => Fin.ext ?_)
    match a with
    | ⟨0, _⟩ => show win10_1.index t (0 : Fin 2) * 128 + 1 * (y 0).val = (y 0).val; omega
    | ⟨1, _⟩ => show win10_1.index t (1 : Fin 2) * 10 + 1 * (y 1).val = (y 1).val; omega
  · intro y
    show V c main_v142 (((cfg10.win 2).blk t).view.emb y) = V c main_v142 y
    refine congrArg (V c main_v142) (funext fun a => Fin.ext ?_)
    match a with
    | ⟨0, _⟩ => show win10_2.index t (0 : Fin 2) * 1 + 1 * (y 0).val = (y 0).val; omega
    | ⟨1, _⟩ => show win10_2.index t (1 : Fin 2) * 10 + 1 * (y 1).val = (y 1).val; omega
  · show win10_3.index t (0 : Fin 2) * 512 + 1 * (j 0).val = (j 0).val; omega
  · show win10_3.index t (1 : Fin 2) * 10 + 1 * (j 1).val = (j 1).val; omega

/-- An index of the output array is in the point's block iff each coordinate is in the block's range on its axis. -/
theorem mem_blk (t : Fin cfg10.N) (i : S512x10.Idx) :
    i ∈ ((cfg10.win 3).blk t).view.set ↔ ∀ a : Fin 2, win10_3.index t a * S512x10.size a ≤ (i a).val ∧ (i a).val < win10_3.index t a * S512x10.size a + S512x10.size a := by
  show i ∈ ((View.whole main_v143).slice (win10_3.rect t)).set ↔ _
  rw [View.set_slice_whole, Rect.mem_set_unit]
  exact Iff.rfl

/-- The one block covers the array. -/
theorem cover (i : S512x10.Idx) : ∃ t : Fin cfg10.N, (cfg10.win 3).flush t = true ∧ i ∈ ((cfg10.win 3).blk t).view.set := by
  have hi0 : (i 0).val < 512 := (i 0).isLt
  have hi1 : (i 1).val < 10 := (i 1).isLt
  refine ⟨⟨0, by rw [show cfg10.N = 1 from N_10]; omega⟩, flush10_3 _, ?_⟩
  rw [mem_blk]
  obtain ⟨e0, e1, e2, e3, e4, e5, e6, e7⟩ := idx_facts ⟨0, by rw [show cfg10.N = 1 from N_10]; omega⟩
  intro a
  match a with
  | ⟨0, _⟩ =>
    show win10_3.index _ (0 : Fin 2) * 512 ≤ (i 0).val ∧ (i 0).val < win10_3.index _ (0 : Fin 2) * 512 + 512
    rw [e6]; omega
  | ⟨1, _⟩ =>
    show win10_3.index _ (1 : Fin 2) * 10 ≤ (i 1).val ∧ (i 1).val < win10_3.index _ (1 : Fin 2) * 10 + 10
    rw [e7]; omega

/-- THE RESULT ARRAY after the region: the head of the operand arrays as the region found them. -/
theorem final (c : Dev nD) : (dat10 V c).arrAt 3 cfg10.N = result V c :=
  (dat10 V c).arrAt_eq_of_cover 3 (result V c) (fun t _ => flushed_eq V c t) (cover)

end Cert.KernelIdeal.Region10

end
-- ==== Proof.ChainEnd.lean ====
/-
  The pooling stretch and the head (from region 9's exit, `Gen.W22`, to the end, `Gen.W24`).

  The last host stretch averages the rows of each graph and views the head's bias as one row; region 10 multiplies the
  pooled features by the head's weight and adds the bias row. With the features after layer 4 in place this is
  `Cert.Net.poolHead`, and with the layers unfolded it is the whole network `Cert.Net.net` of the argument arrays.
-/
import proofs.«164210_j54150947668273_1_alg».proof.Defs
import proofs.«164210_j54150947668273_1_alg».proof.Proof.Gen.KernelIdeal.Frame
import proofs.«164210_j54150947668273_1_alg».proof.Proof.Net
import proofs.«164210_j54150947668273_1_alg».proof.Proof.ChainTac
import proofs.«164210_j54150947668273_1_alg».proof.Proof.ChainL4
import proofs.«164210_j54150947668273_1_alg».proof.Proof.Region10
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ChainTac

variable (m : (ℓ : Loc nD τ sig) → Buf (Elt Ideal) ℓ) (ρ : Dev nD → PrngReg) (c : Dev nD)

/-- The pooled features, the head's weight and the bias row at region 10's entry. -/
theorem p23 : W23 m ρ c (Proc.devRef .tc main_v141) = Cert.Net.poolOf (X5 m c) (m ((c : Thread nD τ).loc main_arg2)) :=
  (Stretch.pool (W22 m ρ c)).trans (by rw [o22 m ρ c, (keeps22 m ρ c).a2])
theorem a5_23 : W23 m ρ c (Proc.devRef .tc main_arg5) = m ((c : Thread nD τ).loc main_arg5) :=
  (show W23 m ρ c (Proc.devRef .tc main_arg5) = W22 m ρ c (Proc.devRef .tc main_arg5) by carry_host hostOps10).trans (keeps22 m ρ c).a5
theorem l23 : W23 m ρ c (Proc.devRef .tc main_v142)
    = broadcastInDim Cert.ReferenceIdeal.S1x10 ![1] Cert.ReferenceIdeal.Facts₀.bcast_S10_S1x10_1 (m ((c : Thread nD τ).loc main_arg6)) :=
  (Stretch.lrow (W22 m ρ c)).trans (by rw [(keeps22 m ρ c).a6])

/-- The pooled head over the features after layer 4 is the network. -/
theorem net_eq : Cert.Net.poolHead (X5 m c) (m ((c : Thread nD τ).loc main_arg2)) (m ((c : Thread nD τ).loc main_arg5)) (m ((c : Thread nD τ).loc main_arg6))
    = Cert.Net.net (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  unfold X5 X4 X3 X2 X1
  rfl

/-- THE RESULT of the run: the network of the argument arrays. -/
theorem result : W24 m ρ c (Proc.devRef .tc main_v143)
    = Cert.Net.net (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) :=
  ((W24_arr m ρ c 3).trans (Region10.final (V23 m ρ) c)).trans (by
    show Region10.head (W23 m ρ c (Proc.devRef .tc main_v141)) (W23 m ρ c (Proc.devRef .tc main_arg5)) (W23 m ρ c (Proc.devRef .tc main_v142)) = _
    rw [p23 m ρ c, a5_23 m ρ c, l23 m ρ c]
    exact (Cert.Net.poolHead_eq _ _ _ _).symm.trans (net_eq m c))

end Cert.KernelIdeal.Chain

end
-- ==== Proof.lean ====
/-
  `Cert.Claim` for a five-layer graph convolution with mean pooling and a linear head, computed by eleven TensorCore
  regions among stretches of host operations, against a reference made of host operations only.

  Both programs build the same edge lists with self loops, the same guarded `deg⁻¹ᐟ²` and per-edge normaliser, and
  per layer `max (A · (x · w) + b, 0)` with `A` the normalised aggregation over the edges; they pool by graph id and
  apply the head. The kernel computes `x · w` on row tiles of 5000 rows (the tiles of a matrix product are the
  product's rows, and a change of float format is the identity over the extended reals), adds the bias row and clamps
  on the same tiles, and computes the head on one tile; everything else it does with the reference's own host
  operations. So each program's result is `Cert.Net.net` of its argument arrays: the kernel's by reading its run at
  the result buffer and following the buffers through its segments (`Cert.KernelIdeal.Chain.result`), the reference's
  by reading its run back (`Cert.ReferenceIdeal.RefNet.run`). From memories agreeing on the arguments the results are
  equal. The three frames are the runs themselves; the idealization rewrote no operation, so it preserves trivially.
-/
import proofs.«164210_j54150947668273_1_alg».proof.Defs
import proofs.«164210_j54150947668273_1_alg».proof.Proof.Gen.Kernel
import proofs.«164210_j54150947668273_1_alg».proof.Proof.Gen.Kernel.Skeleton
import proofs.«164210_j54150947668273_1_alg».proof.Proof.Gen.Kernel.Launch
import proofs.«164210_j54150947668273_1_alg».proof.Proof.Gen.Kernel.Points
import proofs.«164210_j54150947668273_1_alg».proof.Proof.Gen.Kernel.Frame
import proofs.«164210_j54150947668273_1_alg».proof.Proof.Gen.KernelIdeal
import proofs.«164210_j54150947668273_1_alg».proof.Proof.Gen.KernelIdeal.Skeleton
import proofs.«164210_j54150947668273_1_alg».proof.Proof.Gen.KernelIdeal.Launch
import proofs.«164210_j54150947668273_1_alg».proof.Proof.Gen.KernelIdeal.Points
import proofs.«164210_j54150947668273_1_alg».proof.Proof.Gen.KernelIdeal.Frame
import proofs.«164210_j54150947668273_1_alg».proof.Proof.Gen.ReferenceIdeal
import proofs.«164210_j54150947668273_1_alg».proof.Proof.Gen.Pre_finite_inputs
import proofs.«164210_j54150947668273_1_alg».proof.Proof.RunValue
import proofs.«164210_j54150947668273_1_alg».proof.Proof.RefNet
import proofs.«164210_j54150947668273_1_alg».proof.Proof.ChainEnd
import Idealize.ShloMosaic.Adequacy
import Idealize.ShloMosaic.Init

noncomputable section

namespace Cert.Proof

open Idealize.ShloMosaic Idealize.SL.Sem Cert.Kernel

/-- Both idealized programs compute the network `Cert.Net.net` of their argument arrays: the kernel by its run read at the
    result buffer and the chain through its segments, the reference by its run read back. From memories agreeing on the
    arguments the two results are therefore the same array. No law of the extended reals is used beyond the shared
    definitions, so the precondition is not opened. -/
theorem algebraic : @Cert.algebraic_KernelIdeal_ReferenceIdeal Cert.KernelIdeal.Gen.facts Cert.ReferenceIdeal.Gen.facts Cert.Pre_finite_inputs.Gen.facts :=
  fun m g m' g' _ hagree =>
    ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
     (θ_run _ _ _).mono (fun _ h c => ⟨(h c).1.trans (Cert.KernelIdeal.Chain.result m g c), (h c).2⟩)
       (Cert.KernelIdeal.RunValue.run (F := Ideal) m g),
     (θ_run _ _ _).mono (fun _ h c => ⟨(h c).1.trans (by
         obtain ⟨e0, e1, e2, e3, e4, e5, e6⟩ := hagree c
         rw [e0, e1, e2, e3, e4, e5, e6]), (h c).2⟩)
       (Cert.ReferenceIdeal.RefNet.run m' g')⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
